-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S128x8192 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x64 : Shape := ⟨2, ![64, 64]⟩
abbrev S64x1 : Shape := ⟨2, ![64, 1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  main_v23

def fn {F : FTy → Type} [FloatOps F] (main_arg0 : FVec F S8192x64 .f32) (main_arg1 : FVec F S8192x8192 .f32) (main_arg2 : FVec F S8192x8192 .f32) (main_arg3 : FVec F S64x64 .f32) (main_arg4 : FVec F S64x1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8192x64 : Shape := ⟨2, ![8192, 64]⟩
abbrev S8192x8192 : Shape := ⟨2, ![8192, 8192]⟩
abbrev S64x64 : Shape := ⟨2, ![64, 64]⟩
abbrev S64x1 : Shape := ⟨2, ![64, 1]⟩
abbrev S128x8192 : Shape := ⟨2, ![128, 8192]⟩
abbrev S128x64 : Shape := ⟨2, ![128, 64]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S128 : Shape := ⟨1, ![128]⟩
abbrev S128x1 : Shape := ⟨2, ![128, 1]⟩

abbrev nBuf : Space → Nat
  | .hbm => 22
  | .vmem => 13
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x8192, .f32⟩
  | .hbm, ⟨3, _⟩ => ⟨S64x64, .f32⟩
  | .hbm, ⟨4, _⟩ => ⟨S64x1, .f32⟩
  | .hbm, ⟨5, _⟩ => ⟨S8192x64, .f32⟩
  | .hbm, ⟨6, _⟩ => ⟨S8192x64, .bf16⟩
  | .hbm, ⟨7, _⟩ => ⟨S8192x64, .bf16⟩
  | .hbm, ⟨8, _⟩ => ⟨S8192x64, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S8192x1, .f32⟩
  | .hbm, ⟨13, _⟩ => ⟨S8192x1, .i1⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192, .f32⟩
  | .hbm, ⟨19, _⟩ => ⟨S1x8192, .f32⟩
  | .hbm, ⟨20, _⟩ => ⟨S8192x8192, .f32⟩
  | .hbm, ⟨21, _⟩ => ⟨S8192x64, .f32⟩
  | .local _ .vmem, ⟨0, _⟩ => ⟨S128x8192, .f32⟩
  | .local _ .vmem, ⟨1, _⟩ => ⟨S128x8192, .f32⟩
  | .local _ .vmem, ⟨2, _⟩ => ⟨S8192x64, .bf16⟩
  | .local _ .vmem, ⟨3, _⟩ => ⟨S128x64, .f32⟩
  | .local _ .vmem, ⟨4, _⟩ => ⟨S128x64, .f32⟩
  | .local _ .vmem, ⟨5, _⟩ => ⟨S128x8192, .f32⟩
  | .local _ .vmem, ⟨6, _⟩ => ⟨S128x8192, .f32⟩
  | .local _ .vmem, ⟨7, _⟩ => ⟨S1x8192, .f32⟩
  | .local _ .vmem, ⟨8, _⟩ => ⟨S8192x64, .bf16⟩
  | .local _ .vmem, ⟨9, _⟩ => ⟨S128x8192, .f32⟩
  | .local _ .vmem, ⟨10, _⟩ => ⟨S128x8192, .f32⟩
  | .local _ .vmem, ⟨11, _⟩ => ⟨S128x64, .f32⟩
  | .local _ .vmem, ⟨12, _⟩ => ⟨S128x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S128x8192_S128x8192_0_0 : ∀ a, (![0, 0] : Fin 2 → Nat) a + S128x8192.size a ≤ S128x8192.size a
  h_S128x8192 : 0 < S128x8192.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S128x64_S128x64_0_0 : ∀ a, (![0, 0] : Fin 2 → Nat) a + S128x64.size a ≤ S128x64.size a
  h_S128x64 : 0 < S128x64.numel
  bcast_S_S8192x1 : S_.BroadcastsInDim S8192x1 (![] : Fin 0 → Fin S8192x1.rank)
  shapeCasts_S8192x1_S8192 : S8192x1.ShapeCasts S8192
  bcast_S8192_S1x8192_1 : S8192.BroadcastsInDim S1x8192 (![1] : Fin 1 → Fin S1x8192.rank)
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  reduces_S128x8192_S128 : S128x8192.Reduces [1] S128
  shapeCasts_S128_S128x1 : S128.ShapeCasts S128x1
  broadcasts_S128x1_S128x8192 : S128x1.Broadcasts S128x8192
  dot_S8192x64_S64x64_S8192x64_1_0_0_1_n_n_wf : DotDims.WF S8192x64 S64x64 S8192x64 [1] [0] [0] [1] [] []
  dot_S128x8192_S8192x64_S128x64_1_0_0_1_n_n_wf : DotDims.WF S128x8192 S8192x64 S128x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .bf16 = 32 ∨ (Rect.block (s := S8192x64) S8192x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S8192x64.size a
  hwx0_2 : ∀ i : grid0.Coords, EltTy.bits .f32 = 32 ∨ (Rect.block (s := S8192x64) S128x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S8192x8192.size a
  hwx1_0 : ∀ i : grid1.Coords, EltTy.bits .f32 = 32 ∨ (Rect.block (s := S8192x8192) S128x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .bf16 = 32 ∨ (Rect.block (s := S8192x64) S8192x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x8192.size a ≤ S8192x8192.size a
  hwx1_3 : ∀ i : grid1.Coords, EltTy.bits .f32 = 32 ∨ (Rect.block (s := S8192x8192) S128x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S8192x64.size a
  hwx1_4 : ∀ i : grid1.Coords, EltTy.bits .f32 = 32 ∨ (Rect.block (s := S8192x64) S128x64.size (cc1_transform_4 i) (hinb1_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S128x8192_S8192x64_S128x64_1_0_0_1_n_n : DotDims S128x8192 S8192x64 S128x64 where
  lhsContracting := [1]
  rhsContracting := [0]
  lhsNonContracting := [0]
  rhsNonContracting := [1]
  lhsBatch := []
  rhsBatch := []
  wf := dot_S128x8192_S8192x64_S128x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_arg1) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S128x8192.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S64x64 : Shape := ⟨2, ![64, 64]⟩
abbrev S64x1 : Shape := ⟨2, ![64, 1]⟩
abbrev S_ : Shape := ⟨0, ![]⟩
abbrev S8192x1 : Shape := ⟨2, ![8192, 1]⟩
abbrev S8192 : Shape := ⟨1, ![8192]⟩
abbrev S1x8192 : Shape := ⟨2, ![1, 8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x8192, .f32⟩
  | .hbm, ⟨3, _⟩ => ⟨S64x64, .f32⟩
  | .hbm, ⟨4, _⟩ => ⟨S64x1, .f32⟩
  | .hbm, ⟨5, _⟩ => ⟨S8192x64, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S8192x8192, .f32⟩
  | .hbm, ⟨10, _⟩ => ⟨S8192x64, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S8192x8192, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S8192x1, .f32⟩
  | .hbm, ⟨22, _⟩ => ⟨S8192x1, .i1⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192, .f32⟩
  | .hbm, ⟨28, _⟩ => ⟨S1x8192, .f32⟩
  | .hbm, ⟨29, _⟩ => ⟨S_, .f32⟩
  | .hbm, ⟨30, _⟩ => ⟨S8192x8192, .f32⟩
  | .hbm, ⟨31, _⟩ => ⟨S8192x8192, .i1⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S8192x1 : S_.BroadcastsInDim S8192x1 (![] : Fin 0 → Fin S8192x1.rank)
  shapeCasts_S8192x1_S8192 : S8192x1.ShapeCasts S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  dot_S8192x64_S64x1_S8192x1_1_0_0_1_n_n_wf : DotDims.WF S8192x64 S64x1 S8192x1 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.KRun.lean ====
/-
  The idealized kernel program's run with its two results NAMED: every weakly fair execution of the program
  terminates, nothing faulting, with the attention array and the aggregated-feature array at what the last region's
  write-backs leave (the last boundary's contents), and the five arguments as launched.
-/
import proofs.«151028_j68126771249441_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with each result buffer read at the last boundary's contents. -/
theorem run_results : θ_run defs (onTc (τ := τ) (main (F := F))) ⟨m, fun _ => 0, ρ⟩ (fun r => ∀ c : Dev nD,
      r.2.mem ((c.tc : Thread nD τ).loc main_v8_1) = W6 m ρ c (Proc.devRef .tc main_v8_1)
      ∧ r.2.mem ((c.tc : Thread nD τ).loc main_v8_0) = W6 m ρ c (Proc.devRef .tc main_v8_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v8_1 (by decide)),
       h c _ (mem_uc main_v8_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.KRun

end
-- ==== Proof.KChain.lean ====
/-
  The host operations of the kernel program between its regions, read back: what each stretch leaves in the buffers the
  regions read, as the operations' terms of what the stretch found — the projected features cast for the first region,
  the node features cast for the second, and the score row: the attention input times the attention vector, through the
  leaky rectifier of slope 0.2, laid out as one row.
-/
import proofs.«151028_j68126771249441_2_alg».proof.Proof.Gen.KernelIdeal.Frame
import Idealize.ShloMosaic.Lib.StableHlo.Run

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The projected features: the node features times the weight matrix. -/
def hAttK (a0 : (⟨S8192x64, .f32⟩ : BufTy).Contents (Elt F)) (a3 : (⟨S64x64, .f32⟩ : BufTy).Contents (Elt F)) : (⟨S8192x64, .f32⟩ : BufTy).Contents (Elt F) :=
  Host.dotGeneral dot_S8192x64_S64x64_S8192x64_1_0_0_1_n_n none a0 a3

/-- The row of attention logits from the attention input and the attention vector. -/
def eRowK (ai : (⟨S8192x64, .f32⟩ : BufTy).Contents (Elt F)) (a4 : (⟨S64x1, .f32⟩ : BufTy).Contents (Elt F)) : (⟨S1x8192, .f32⟩ : BufTy).Contents (Elt F) :=
  broadcastInDim S1x8192 ![1] bcast_S8192_S1x8192_1
    (shapeCast S8192
      (select
        (cmpf .oge (Host.dotGeneral dot_S8192x64_S64x1_S8192x1_1_0_0_1_n_n none ai a4)
          (broadcastInDim S8192x1 ![] bcast_S_S8192x1 (constant S_ .f32 0x00000000#32 : (⟨S_, .f32⟩ : BufTy).Contents (Elt F)) : (⟨S8192x1, .f32⟩ : BufTy).Contents (Elt F)))
        (Host.dotGeneral dot_S8192x64_S64x1_S8192x1_1_0_0_1_n_n none ai a4)
        (mulf (broadcastInDim S8192x1 ![] bcast_S_S8192x1 (id (constant S_ .f32 0x3E4CCCCD#32 : (⟨S_, .f32⟩ : BufTy).Contents (Elt F))) : (⟨S8192x1, .f32⟩ : BufTy).Contents (Elt F))
          (Host.dotGeneral dot_S8192x64_S64x1_S8192x1_1_0_0_1_n_n none ai a4)) : (⟨S8192x1, .f32⟩ : BufTy).Contents (Elt F))
      shapeCasts_S8192x1_S8192 : (⟨S8192, .f32⟩ : BufTy).Contents (Elt F))

variable (X : Valuation τ sig (Elt F))

/-! ## Before the first region -/

theorem pre_v1 : after hostOps0 X (Proc.devRef .tc main_v1)
    = (truncf .bf16 (hAttK (X (Proc.devRef .tc main_arg0)) (X (Proc.devRef .tc main_arg3))) bitsLt_bf16_f32 : (⟨S8192x64, .bf16⟩ : BufTy).Contents (Elt F)) := by
  after_results_simp
  rfl

theorem pre_v2 : after hostOps0 X (Proc.devRef .tc main_v2)
    = (truncf .bf16 (X (Proc.devRef .tc main_arg0)) bitsLt_bf16_f32 : (⟨S8192x64, .bf16⟩ : BufTy).Contents (Elt F)) := by
  after_results_simp

theorem pre_arg1 : after hostOps0 X (Proc.devRef .tc main_arg1) = X (Proc.devRef .tc main_arg1) := by after_results_simp
theorem pre_arg2 : after hostOps0 X (Proc.devRef .tc main_arg2) = X (Proc.devRef .tc main_arg2) := by after_results_simp
theorem pre_arg4 : after hostOps0 X (Proc.devRef .tc main_arg4) = X (Proc.devRef .tc main_arg4) := by after_results_simp

/-! ## Between the regions -/

theorem mid_v7 : after hostOps1_2 (after hostOps1_1 (after hostOps1 X)) (Proc.devRef .tc main_v7)
    = eRowK (X (Proc.devRef .tc main_v3)) (X (Proc.devRef .tc main_arg4)) := by
  after_results_simp
  rfl

theorem mid_arg2 : after hostOps1_2 (after hostOps1_1 (after hostOps1 X)) (Proc.devRef .tc main_arg2) = X (Proc.devRef .tc main_arg2) := by
  after_results_simp

theorem mid_v2 : after hostOps1_2 (after hostOps1_1 (after hostOps1 X)) (Proc.devRef .tc main_v2) = X (Proc.devRef .tc main_v2) := by
  after_results_simp

end Cert.KernelIdeal.KChain

end
-- ==== Proof.Spec.lean ====
/-
  The mathematics both programs share, one row at a time, on the extended reals.

  A row of the attention matrix: the masked scores `s k = e k` where the edge weight is not zero and the
  large negative fill elsewhere; the row maximum `M`; the exponentials `exp (s k - M)`; their sum `Z`; the
  quotient `exp (s k - M) / Z`; and the weighted feature sum `Σ k, (attn k · edge k) · h k`.
  A row of the pre-attention input: `|Σ k, sign (x k) · h k|`, which for FINITE `h` is
  `|Σ k, [x k > 0] · h k - Σ k, [x k < 0] · h k|` (the sign is the difference of the two indicators, and a finite
  sum of reals distributes over the difference; at an infinite `h k` the two sides may part, which is why the
  finiteness of the inputs is used).
-/
import Idealize.ShloMosaic.PureOps.Ideal.Laws
import Idealize.ShloMosaic.Lib.ValueIdx

noncomputable section

namespace Cert.Spec

open Idealize.ShloMosaic

/-- The masked score of one entry: the column's score where the edge weight is not zero, else the fill. -/
def score (ed er : Fin 8192 → EReal) (k : Fin 8192) : EReal :=
  Scalar.select (Ideal.cmp .one (ed k) (Ideal.ofBits .f32 0x00000000#32)) (er k) (Ideal.ofBits .f32 0xD9FFCB9E#32)

/-- The maximum of a row, folded from the pattern of minus infinity. -/
def rowMax (s : Fin 8192 → EReal) : EReal :=
  (Finset.univ : Finset (Fin 8192)).fold max (Ideal.ofBits .f32 0xFF800000#32) s

/-- The shifted exponential of one entry. -/
def rowExp (s : Fin 8192 → EReal) (k : Fin 8192) : EReal := Ideal.exp (s k - rowMax s)

/-- The row's normaliser. -/
def rowSum (s : Fin 8192 → EReal) : EReal := ∑ k : Fin 8192, rowExp s k

/-- One entry of the softmax of a row. -/
def attnRow (s : Fin 8192 → EReal) (k : Fin 8192) : EReal := Ideal.div (rowExp s k) (rowSum s)

/-- One entry of the aggregated features: the attention row, weighted by the edge row, against a feature column. -/
def hpRow (ed er h : Fin 8192 → EReal) : EReal :=
  ∑ k : Fin 8192, (attnRow (score ed er) k * ed k) * h k

/-- The signed sum of a feature column along a row of the node adjacency, in absolute value. -/
def aiK (x h : Fin 8192 → EReal) : EReal :=
  max (∑ k : Fin 8192, Ideal.sign (x k) * h k) (-(∑ k : Fin 8192, Ideal.sign (x k) * h k))

/-- The indicator of a positive entry, and of a negative one, as the reference computes them. -/
def posInd (x : EReal) : EReal := ((Ideal.cmp .ogt x (Ideal.ofBits .f32 0x00000000#32)).toNat : ℝ)
def negInd (x : EReal) : EReal := ((Ideal.cmp .olt x (Ideal.ofBits .f32 0x00000000#32)).toNat : ℝ)

/-- The difference of the positive-part sum and the negative-part sum, in absolute value. -/
def aiR (x h : Fin 8192 → EReal) : EReal :=
  max ((∑ k : Fin 8192, posInd (x k) * h k) - (∑ k : Fin 8192, negInd (x k) * h k))
    (-((∑ k : Fin 8192, posInd (x k) * h k) - (∑ k : Fin 8192, negInd (x k) * h k)))

/-- The maximum with the fold's own starting value changes nothing. -/
theorem max_rowMax (s : Fin 8192 → EReal) : max (Ideal.ofBits .f32 0xFF800000#32) (rowMax s) = rowMax s :=
  max_eq_right ((Finset.le_fold_max _).mpr (Or.inl le_rfl))

theorem cmp_une (x y : EReal) : Ideal.cmp .une x y = Ideal.cmp .one x y := rfl

/-- A finite sum of real numbers, taken in the extended reals. -/
theorem coe_sum {ι : Type*} (t : Finset ι) (g : ι → ℝ) : (∑ k ∈ t, ((g k : ℝ) : EReal)) = ((∑ k ∈ t, g k : ℝ) : EReal) := by
  classical
  induction t using Finset.induction_on with
  | empty => simp
  | insert a t ha ih => rw [Finset.sum_insert ha, Finset.sum_insert ha, ih, EReal.coe_add]

theorem zero_eq : Ideal.ofBits .f32 0x00000000#32 = 0 := Ideal.ofBits_zero_f32

/-- The sign of an extended real is the difference of its two indicators, all three real numbers. -/
theorem sign_ind (x : EReal) : ∃ p q : ℝ, posInd x = (p : EReal) ∧ negInd x = (q : EReal) ∧ Ideal.sign x = ((p - q : ℝ) : EReal) := by
  unfold posInd negInd
  rw [zero_eq]
  by_cases hlt : x < 0
  · refine ⟨0, 1, ?_, ?_, ?_⟩
    · have : ¬ (0 < x) := not_lt.mpr hlt.le
      simp [Ideal.cmp, this]
    · simp [Ideal.cmp, hlt]
    · rw [Ideal.sign_of_neg hlt]; norm_num
  · by_cases hgt : 0 < x
    · refine ⟨1, 0, ?_, ?_, ?_⟩
      · simp [Ideal.cmp, hgt]
      · simp [Ideal.cmp, hlt]
      · rw [Ideal.sign_of_pos hgt]; norm_num
    · have h0 : x = 0 := le_antisymm (not_lt.mp hgt) (not_lt.mp hlt)
      subst h0
      refine ⟨0, 0, ?_, ?_, ?_⟩
      · simp [Ideal.cmp]
      · simp [Ideal.cmp]
      · rw [Ideal.sign_zero]; norm_num

/-- For a finite feature column the signed sum is the positive-part sum less the negative-part sum. -/
theorem aiK_eq_aiR (x h : Fin 8192 → EReal) (hfin : ∀ k, ∃ r : ℝ, h k = (r : EReal)) : aiK x h = aiR x h := by
  choose r hr using hfin
  choose p q hp hq hs using fun k => sign_ind (x k)
  have e1 : (∑ k : Fin 8192, Ideal.sign (x k) * h k) = ((∑ k : Fin 8192, (p k - q k) * r k : ℝ) : EReal) := by
    rw [← coe_sum]; exact Finset.sum_congr rfl fun k _ => by rw [hs k, hr k, EReal.coe_mul]
  have e2 : (∑ k : Fin 8192, posInd (x k) * h k) = ((∑ k : Fin 8192, p k * r k : ℝ) : EReal) := by
    rw [← coe_sum]; exact Finset.sum_congr rfl fun k _ => by rw [hp k, hr k, EReal.coe_mul]
  have e3 : (∑ k : Fin 8192, negInd (x k) * h k) = ((∑ k : Fin 8192, q k * r k : ℝ) : EReal) := by
    rw [← coe_sum]; exact Finset.sum_congr rfl fun k _ => by rw [hq k, hr k, EReal.coe_mul]
  have e4 : (∑ k : Fin 8192, (p k - q k) * r k : ℝ) = (∑ k : Fin 8192, p k * r k) - (∑ k : Fin 8192, q k * r k) := by
    rw [← Finset.sum_sub_distrib]; exact Finset.sum_congr rfl fun k _ => by ring
  unfold aiK aiR
  rw [e1, e2, e3, e4, EReal.coe_sub]

end Cert.Spec

end
-- ==== Proof.KPay.lean ====
/-
  The kernel bodies' arithmetic, read at one index, on the extended reals.

  Each body computes a whole block at once; here each computed block is read at one entry and identified with
  the row-level function of the same name: a row's masked scores, its maximum (the fold of max over its 8192
  entries), its shifted exponentials, their sum, the quotient, and the two products summed along the 8192 columns.
-/
import proofs.«151028_j68126771249441_2_alg».proof.Proof.Gen.KernelIdeal.Skeleton
import proofs.«151028_j68126771249441_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-! ## Indices -/

/-- The entry `k` of row `p`: the reduced index `p` with the coordinate `k` put back on the reduced axis. -/
theorem lift_ix (p : Fin 128) (k : Fin 8192) : reduces_S128x8192_S128.lift (ix1 p) k = ix2 p k :=
  funext fun a => Fin.ext (by match a with | ⟨0, _⟩ => rfl | ⟨1, _⟩ => rfl)

/-! ## The keepdims column forms -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A row statistic kept as a column and spread back over the row reads, at `(p, k)`, the statistic of row `p`. -/
theorem keepdims_apply (w : FVec Ideal S128 .f32) (p : Fin 128) (k : Fin 8192) :
    broadcastTo S128x8192 (shapeCast S128x1 w shapeCasts_S128_S128x1) broadcasts_S128x1_S128x8192 (ix2 p k) = w (ix1 p) :=
  (broadcastTo_a1_ab_apply _ broadcasts_S128x1_S128x8192 p k).trans (shapeCast_a_a1_apply w shapeCasts_S128_S128x1 p 0)

/-! ## Row reductions -/

/-- A row's maximum is the fold of max over its 8192 entries. -/
theorem rowMax_apply (v : FVec Ideal S128x8192 .f32) (p : Fin 128) :
    multiReduction (F := Ideal) .maximumf [1] S128 v 0xFF800000#32 reduces_S128x8192_S128 (.inl rfl) rfl (ix1 p)
      = Cert.Spec.rowMax (fun k => v (ix2 p k)) := by
  refine (Ideal.multiReduction_maximumf_single v 0xFF800000#32 reduces_S128x8192_S128 (.inl rfl) rfl (ix1 p)).trans ?_
  have e : (v ∘ reduces_S128x8192_S128.lift (ix1 p)) = fun k : Fin 8192 => v (ix2 p k) :=
    funext fun k => congrArg v (lift_ix p k)
  rw [e]
  rfl

/-- A row's sum is the sum of its 8192 entries. -/
theorem rowSum_apply (v : FVec Ideal S128x8192 .f32) (p : Fin 128) :
    multiReduction (F := Ideal) .add [1] S128 v 0x00000000#32 reduces_S128x8192_S128 (.inl rfl) rfl (ix1 p)
      = ∑ k : Fin 8192, v (ix2 p k) := by
  refine (Ideal.multiReduction_add_single v 0x00000000#32 reduces_S128x8192_S128 (.inl rfl) rfl (ix1 p)).trans ?_
  exact Finset.sum_congr rfl fun k _ => congrArg v (lift_ix p k)

/-! ## A product of a 128 × 8192 block with an 8192 × 64 block -/

/-- The left operand's index of the product at `(p, f)` and column `k` is `(p, k)`. -/
theorem lhsIdx_ix (p : Fin 128) (f : Fin 64) (k : Fin 8192) :
    dot_S128x8192_S8192x64_S128x64_1_0_0_1_n_n.lhsIdx (ix2 p f)
        ((contrEquiv1 dot_S128x8192_S8192x64_S128x64_1_0_0_1_n_n 8192 rfl rfl).symm k) = ix2 p k := by
  funext a
  refine Fin.ext ?_
  match a with
  | ⟨0, _⟩ =>
    show (dot_S128x8192_S8192x64_S128x64_1_0_0_1_n_n.lhsIdx (ix2 p f) _ 0 : ℕ) = p.val
    simp [DotDims.lhsIdx, dot_S128x8192_S8192x64_S128x64_1_0_0_1_n_n]; rfl
  | ⟨1, _⟩ =>
    show (dot_S128x8192_S8192x64_S128x64_1_0_0_1_n_n.lhsIdx (ix2 p f) _ 1 : ℕ) = k.val
    rw [DotDims.lhsIdx_val_of_single _ (cl := 1) rfl]
    exact contrEquiv1_symm_val _ 8192 rfl rfl k

/-- The right operand's index of the product at `(p, f)` and column `k` is `(k, f)`. -/
theorem rhsIdx_ix (p : Fin 128) (f : Fin 64) (k : Fin 8192) :
    dot_S128x8192_S8192x64_S128x64_1_0_0_1_n_n.rhsIdx (ix2 p f)
        ((contrEquiv1 dot_S128x8192_S8192x64_S128x64_1_0_0_1_n_n 8192 rfl rfl).symm k) = ix2 k f := by
  funext a
  refine Fin.ext ?_
  match a with
  | ⟨0, _⟩ =>
    show (dot_S128x8192_S8192x64_S128x64_1_0_0_1_n_n.rhsIdx (ix2 p f) _ 0 : ℕ) = k.val
    rw [DotDims.rhsIdx_val_of_single _ (cr := 0) rfl]
    exact contrEquiv1_symm_val _ 8192 rfl rfl k
  | ⟨1, _⟩ =>
    show (dot_S128x8192_S8192x64_S128x64_1_0_0_1_n_n.rhsIdx (ix2 p f) _ 1 : ℕ) = f.val
    simp [DotDims.rhsIdx, dot_S128x8192_S8192x64_S128x64_1_0_0_1_n_n]; rfl

/-- The product into the zero block, at `(p, f)`: the sum over the 8192 columns of row `p` against column `f`. -/
theorem matmul_ix (lhs : FVec Ideal S128x8192 .bf16) (rhs : FVec Ideal S8192x64 .bf16) (p : Fin 128) (f : Fin 64) :
    matmul dot_S128x8192_S8192x64_S128x64_1_0_0_1_n_n none lhs rhs (constant S128x64 .f32 0x00000000#32) (ix2 p f)
      = ∑ k : Fin 8192, lhs (ix2 p k) * rhs (ix2 k f) := by
  refine (Ideal.matmul_constant_zero_apply dot_S128x8192_S8192x64_S128x64_1_0_0_1_n_n none lhs rhs (ix2 p f)).trans ?_
  refine (Equiv.sum_comp (contrEquiv1 dot_S128x8192_S8192x64_S128x64_1_0_0_1_n_n 8192 rfl rfl).symm _).symm.trans ?_
  exact Finset.sum_congr rfl fun k _ => by rw [lhsIdx_ix, rhsIdx_ix]

/-! ## The attention body's blocks -/

/-- The masked scores: the column's score where the edge weight is not zero, the fill elsewhere. -/
def sc (x0 : FVec Ideal S128x8192 .f32) (x1 : FVec Ideal S1x8192 .f32) : FVec Ideal S128x8192 .f32 :=
  select (cmpf .one x0 (broadcast S128x8192 (Scalar.ofBits .f32 0x00000000#32)))
    (broadcastTo S128x8192 (shapeCast S1x8192 (shapeCast S1x8192 x1 shapeCasts_S1x8192_S1x8192) shapeCasts_S1x8192_S1x8192)
      broadcasts_S1x8192_S128x8192)
    (broadcast S128x8192 (Scalar.ofBits .f32 0xD9FFCB9E#32))

/-- The exponentials of the masked scores, each row shifted by its maximum. -/
def ex (x0 : FVec Ideal S128x8192 .f32) (x1 : FVec Ideal S1x8192 .f32) : FVec Ideal S128x8192 .f32 :=
  exp (subf (sc x0 x1)
    (broadcastTo S128x8192
      (shapeCast S128x1 (multiReduction (F := Ideal) .maximumf [1] S128 (sc x0 x1) 0xFF800000#32 reduces_S128x8192_S128 (.inl rfl) rfl)
        shapeCasts_S128_S128x1)
      broadcasts_S128x1_S128x8192))

/-- The softmax block is the exponentials over their row sums. -/
theorem k1_pay1_eq (x0 : Vec Ideal S128x8192 .f32) (x1 : Vec Ideal S1x8192 .f32) :
    k1_pay1 (F := Ideal) x0 x1
      = divf (ex x0 x1)
          (broadcastTo S128x8192
            (shapeCast S128x1 (multiReduction (F := Ideal) .add [1] S128 (ex x0 x1) 0x00000000#32 reduces_S128x8192_S128 (.inl rfl) rfl)
              shapeCasts_S128_S128x1)
            broadcasts_S128x1_S128x8192) := rfl

/-- A masked score at `(p, k)` is the row-level masked score of row `p` at `k`. -/
theorem sc_apply (x0 : FVec Ideal S128x8192 .f32) (x1 : FVec Ideal S1x8192 .f32) (p : Fin 128) (k : Fin 8192) :
    sc x0 x1 (ix2 p k) = Cert.Spec.score (fun k' => x0 (ix2 p k')) (fun k' => x1 (ix2 (0 : Fin 1) k')) k := by
  unfold sc
  rw [shapeCast_self, shapeCast_self]
  show Scalar.select _ (broadcastTo S128x8192 x1 broadcasts_S1x8192_S128x8192 (ix2 p k)) _ = _
  rw [broadcastTo_1b_ab_apply]
  rfl

/-- A row of the masked scores is the row-level masked scores. -/
theorem sc_row (x0 : FVec Ideal S128x8192 .f32) (x1 : FVec Ideal S1x8192 .f32) (p : Fin 128) :
    (fun k : Fin 8192 => sc x0 x1 (ix2 p k)) = Cert.Spec.score (fun k' => x0 (ix2 p k')) (fun k' => x1 (ix2 (0 : Fin 1) k')) :=
  funext fun k => sc_apply x0 x1 p k

/-- A shifted exponential at `(p, k)` is the row-level one of row `p` at `k`. -/
theorem ex_apply (x0 : FVec Ideal S128x8192 .f32) (x1 : FVec Ideal S1x8192 .f32) (p : Fin 128) (k : Fin 8192) :
    ex x0 x1 (ix2 p k) = Cert.Spec.rowExp (Cert.Spec.score (fun k' => x0 (ix2 p k')) (fun k' => x1 (ix2 (0 : Fin 1) k'))) k := by
  unfold ex Cert.Spec.rowExp
  show Ideal.exp (sc x0 x1 (ix2 p k) - broadcastTo S128x8192 (shapeCast S128x1 _ shapeCasts_S128_S128x1) broadcasts_S128x1_S128x8192 (ix2 p k)) = _
  rw [keepdims_apply, rowMax_apply, sc_row, sc_apply]

/-- A row of the shifted exponentials is the row-level ones. -/
theorem ex_row (x0 : FVec Ideal S128x8192 .f32) (x1 : FVec Ideal S1x8192 .f32) (p : Fin 128) :
    (fun k : Fin 8192 => ex x0 x1 (ix2 p k)) = Cert.Spec.rowExp (Cert.Spec.score (fun k' => x0 (ix2 p k')) (fun k' => x1 (ix2 (0 : Fin 1) k'))) :=
  funext fun k => ex_apply x0 x1 p k

/-! ## The three payloads at an index -/

/-- The softmax block at `(p, k)` is the softmax of row `p`'s masked scores at `k`. -/
theorem pay1_apply (x0 : Vec Ideal S128x8192 .f32) (x1 : Vec Ideal S1x8192 .f32) (p : Fin 128) (k : Fin 8192) :
    k1_pay1 (F := Ideal) x0 x1 (ix2 p k)
      = Cert.Spec.attnRow (Cert.Spec.score (fun k' => x0 (ix2 p k')) (fun k' => x1 (ix2 0 k'))) k := by
  rw [k1_pay1_eq]
  unfold Cert.Spec.attnRow Cert.Spec.rowSum
  show Ideal.div (ex x0 x1 (ix2 p k))
      (broadcastTo S128x8192 (shapeCast S128x1 _ shapeCasts_S128_S128x1) broadcasts_S128x1_S128x8192 (ix2 p k)) = _
  rw [keepdims_apply, rowSum_apply, ex_apply]
  exact congrArg (Ideal.div _) (Finset.sum_congr rfl fun k' _ => ex_apply x0 x1 p k')

/-- The aggregated features at `(p, f)`: the softmax of row `p`, weighted by the edge row, against feature column `f`. -/
theorem pay2_apply (x0 : Vec Ideal S128x8192 .f32) (x1 : Vec Ideal S1x8192 .f32) (x21 : Vec Ideal S8192x64 .bf16)
    (p : Fin 128) (f : Fin 64) :
    k1_pay2 (F := Ideal) x0 x1 x21 (ix2 p f)
      = Cert.Spec.hpRow (fun k => x0 (ix2 p k)) (fun k => x1 (ix2 0 k)) (fun k => x21 (ix2 k f)) := by
  unfold k1_pay2 Cert.Spec.hpRow
  rw [shapeCast_self]
  refine (matmul_ix _ _ p f).trans ?_
  refine Finset.sum_congr rfl fun k _ => ?_
  show (k1_pay1 (F := Ideal) x0 x1 (ix2 p k) * x0 (ix2 p k)) * x21 (ix2 k f) = _
  rw [pay1_apply]

/-- The pre-attention input at `(p, f)`: the signed sum of feature column `f` along row `p`, in absolute value. -/
theorem pay0_apply (x0 : Vec Ideal S128x8192 .f32) (x1 : Vec Ideal S8192x64 .bf16) (p : Fin 128) (f : Fin 64) :
    k0_pay1 (F := Ideal) x0 x1 (ix2 p f) = Cert.Spec.aiK (fun k => x0 (ix2 p k)) (fun k => x1 (ix2 k f)) := by
  unfold k0_pay1 Cert.Spec.aiK
  rw [shapeCast_self]
  have e : ∀ v : FVec Ideal S128x64 .f32, absf v (ix2 p f) = max (v (ix2 p f)) (-(v (ix2 p f))) := fun _ => rfl
  rw [e, matmul_ix]
  refine congrArg (fun t : EReal => max t (-t)) (Finset.sum_congr rfl fun k _ => ?_)
  exact congrArg (· * x1 (ix2 k f)) (Ideal.jnp_sign_eq_sign_f32 (x0 (ix2 p k)))

end Cert.KernelIdeal.KPay

end
-- ==== Proof.SpecArr.lean ====
/-
  The three arrays the kernel program computes, each as ONE function of whole arrays, index by index:
  the pre-attention input `|sign(A) · H|`, the attention matrix (the row softmax of the masked scores), and the
  aggregated features `(attention ∘ edge) · H`.
-/
import proofs.«151028_j68126771249441_2_alg».proof.Proof.Spec

noncomputable section

namespace Cert.Spec

open Idealize.ShloMosaic Idealize.ShloMosaic.ValueIdx

abbrev SNN : Shape := ⟨2, ![8192, 8192]⟩
abbrev SNF : Shape := ⟨2, ![8192, 64]⟩
abbrev S1N : Shape := ⟨2, ![1, 8192]⟩

/-- Entry (i, f) of the pre-attention input: row i of the node adjacency against column f of the features. -/
def GAI (a1 : SNN.Idx → EReal) (hb : SNF.Idx → EReal) : SNF.Idx → EReal :=
  fun i => aiK (fun k => a1 (ix2 (n0 := 8192) (n1 := 8192) (i 0) k)) (fun k => hb (ix2 (n0 := 8192) (n1 := 64) k (i 1)))

/-- The same entry as the reference computes it. -/
def GAIR (a1 : SNN.Idx → EReal) (hb : SNF.Idx → EReal) : SNF.Idx → EReal :=
  fun i => aiR (fun k => a1 (ix2 (n0 := 8192) (n1 := 8192) (i 0) k)) (fun k => hb (ix2 (n0 := 8192) (n1 := 64) k (i 1)))

/-- Entry (i, k) of the attention matrix: the softmax of row i of the masked scores. -/
def GATT (a2 : SNN.Idx → EReal) (er : S1N.Idx → EReal) : SNN.Idx → EReal :=
  fun i => attnRow (score (fun k' => a2 (ix2 (n0 := 8192) (n1 := 8192) (i 0) k')) (fun k' => er (ix2 (n0 := 1) (n1 := 8192) 0 k'))) (i 1)

/-- Entry (i, f) of the aggregated features. -/
def GHP (a2 : SNN.Idx → EReal) (er : S1N.Idx → EReal) (h : SNF.Idx → EReal) : SNF.Idx → EReal :=
  fun i => hpRow (fun k => a2 (ix2 (n0 := 8192) (n1 := 8192) (i 0) k)) (fun k => er (ix2 (n0 := 1) (n1 := 8192) 0 k))
    (fun k => h (ix2 (n0 := 8192) (n1 := 64) k (i 1)))

/-- For a finite feature array the two readings of the pre-attention input agree. -/
theorem GAI_eq_GAIR (a1 : SNN.Idx → EReal) (hb : SNF.Idx → EReal) (hfin : ∀ j, ∃ r : ℝ, hb j = (r : EReal)) :
    GAI a1 hb = GAIR a1 hb :=
  funext fun i => aiK_eq_aiR _ _ fun k => hfin _

end Cert.Spec

end
-- ==== Proof.KArr0.lean ====
/-
  Region 0 (the pre-attention input), from blocks to the array: grid point t writes back rows 128·t … 128·t + 127 of
  ONE whole-array function of the node adjacency and the feature array as the region finds them, and the 64 points'
  blocks cover the array; so the array after the region is that function.
-/
import proofs.«151028_j68126771249441_2_alg».proof.Proof.Gen.KernelIdeal.Frame
import proofs.«151028_j68126771249441_2_alg».proof.Proof.KPay
import proofs.«151028_j68126771249441_2_alg».proof.Proof.SpecArr
import Idealize.ShloMosaic.Lib.Pipeline.Value

set_option maxRecDepth 16384

noncomputable section

namespace Cert.KernelIdeal.KArr

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps of region 0 over its 64 points: the adjacency block and the output block are both block row t,
    the feature array is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The payload at a block index is the whole-array function at the array index, once the blocks are the arrays
    read at the matching rows and columns. -/
theorem pay0_at (x0 : Vec Ideal S128x8192 .f32) (x1 : Vec Ideal S8192x64 .bf16) (a1 : SNN.Idx → EReal) (hb : SNF.Idx → EReal)
    (p : Fin 128) (f : Fin 64) (q : Fin 8192)
    (h0 : ∀ k : Fin 8192, x0 (ix2 p k) = a1 (ix2 q k)) (h1 : ∀ k : Fin 8192, x1 (ix2 k f) = hb (ix2 k f)) :
    k0_pay1 (F := Ideal) x0 x1 (ix2 p f) = GAI a1 hb (ix2 q f) := by
  rw [Cert.KernelIdeal.KPay.pay0_apply]
  unfold GAI
  exact congrArg₂ aiK (funext h0) (funext h1)

theorem flushed0_eq (c : Dev nD) (t : Fin cfg0.N) :
    (dat0 V c).flushed 2 t = ((cfg0.win 2).blk t).view.read (Elt Ideal) (GAI (V c main_arg1) (V c main_v1)) := by
  show (cfg0.win 2).cut (grid0.coords t) ((dat0 V c).after 2 t) = _
  rw [after0_2]
  unfold out0_2
  rw [View.canon_unit_zero hz]
  simp only [View.ld_unit_zero (S := S128x8192) hz, View.ld_unit_zero (S := S8192x64) hz]
  obtain ⟨e0, e1, e2, e3, e4, e5⟩ := idx_facts0 t
  have ht : t.val < 64 := by have h1 : t.val < grid0.N := t.isLt; have h2 : grid0.N = 64 := N_0; omega
  funext y
  obtain ⟨p, f, rfl⟩ : ∃ (p : Fin 128) (f : Fin 64), y = ix2 p f := ⟨y 0, y 1, eq_ix2 y⟩
  have hemb : ((cfg0.win 2).blk t).view.emb (ix2 p f) = ix2 (⟨t.val * 128 + p.val, by omega⟩ : Fin 8192) f := by
    funext a; apply Fin.ext
    match a with
    | ⟨0, _⟩ => show win0_2.index t (0 : Fin 2) * 128 + 1 * p.val = t.val * 128 + p.val; omega
    | ⟨1, _⟩ => show win0_2.index t (1 : Fin 2) * 64 + 1 * f.val = f.val; omega
  show k0_pay1 (F := Ideal) (iblk0 V c 0 t) (iblk0 V c 1 t) (ix2 p f) = GAI (V c main_arg1) (V c main_v1) (((cfg0.win 2).blk t).view.emb (ix2 p f))
  rw [hemb]
  refine pay0_at (iblk0 V c 0 t) (iblk0 V c 1 t) (V c main_arg1) (V c main_v1) p f ⟨t.val * 128 + p.val, by omega⟩ (fun k => ?_) (fun k => ?_)
  · show V c main_arg1 (((cfg0.win 0).blk t).view.emb (ix2 p k)) = V c main_arg1 (ix2 (⟨t.val * 128 + p.val, by omega⟩ : Fin 8192) k)
    refine congrArg (V c main_arg1) ?_
    funext a; apply Fin.ext
    match a with
    | ⟨0, _⟩ => show win0_0.index t (0 : Fin 2) * 128 + 1 * p.val = t.val * 128 + p.val; omega
    | ⟨1, _⟩ => show win0_0.index t (1 : Fin 2) * 8192 + 1 * k.val = k.val; omega
  · show V c main_v1 (((cfg0.win 1).blk t).view.emb (ix2 k f)) = V c main_v1 (ix2 k f)
    refine congrArg (V c main_v1) ?_
    funext a; apply Fin.ext
    match a with
    | ⟨0, _⟩ => show win0_1.index t (0 : Fin 2) * 8192 + 1 * k.val = k.val; omega
    | ⟨1, _⟩ => show win0_1.index t (1 : Fin 2) * 64 + 1 * f.val = f.val; omega

/-- An index of the array is in point t's block iff each coordinate is in the block's range. -/
theorem mem_blk0 (t : Fin cfg0.N) (i : S8192x64.Idx) :
    i ∈ ((cfg0.win 2).blk t).view.set ↔ ∀ a : Fin 2, win0_2.index t a * S128x64.size a ≤ (i a).val ∧ (i a).val < win0_2.index t a * S128x64.size a + S128x64.size a := by
  show i ∈ ((View.whole main_v3).slice (win0_2.rect t)).set ↔ _
  rw [View.set_slice_whole, Rect.mem_set_unit]
  exact Iff.rfl

/-- Row r lies in the block of point r / 128. -/
theorem cover0 (i : S8192x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  have hN : grid0.N = 64 := N_0
  let t : Fin cfg0.N := ⟨(i 0).val / 128, by show (i 0).val / 128 < grid0.N; omega⟩
  obtain ⟨e0, e1, e2, e3, e4, e5⟩ := idx_facts0 t
  have e4' : win0_2.index t (0 : Fin 2) = (i 0).val / 128 := e4
  refine ⟨t, flush0_2 t, ?_⟩
  rw [mem_blk0]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 64 ≤ (i 1).val ∧ (i 1).val < win0_2.index t (1 : Fin 2) * 64 + 64; omega

/-- The pre-attention array after region 0. -/
theorem final0 (c : Dev nD) : (dat0 V c).arrAt 2 cfg0.N = GAI (V c main_arg1) (V c main_v1) :=
  (dat0 V c).arrAt_eq_of_cover 2 (GAI (V c main_arg1) (V c main_v1)) (fun t _ => flushed0_eq V c t) cover0

end Cert.KernelIdeal.KArr

end
-- ==== Proof.KArr1.lean ====
/-
  Region 1 (the attention rows and the aggregated features), from blocks to the arrays: grid point t writes back rows
  128·t … 128·t + 127 of the attention matrix and of the aggregated features, each ONE whole-array function of the
  edge adjacency, the score row and the feature array as the region finds them; the 64 points' blocks cover both arrays.
-/
import proofs.«151028_j68126771249441_2_alg».proof.Proof.Gen.KernelIdeal.Frame
import proofs.«151028_j68126771249441_2_alg».proof.Proof.KPay
import proofs.«151028_j68126771249441_2_alg».proof.Proof.SpecArr
import Idealize.ShloMosaic.Lib.Pipeline.Value

set_option maxRecDepth 16384

noncomputable section

namespace Cert.KernelIdeal.KArr1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps of region 1 over its 64 points: the edge block and both output blocks are block row t; the score
    row and the feature array are one block each. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem pay1_at (x0 : Vec Ideal S128x8192 .f32) (x1 : Vec Ideal S1x8192 .f32) (a2 : SNN.Idx → EReal) (er : S1N.Idx → EReal)
    (p : Fin 128) (k : Fin 8192) (q : Fin 8192)
    (h0 : ∀ k' : Fin 8192, x0 (ix2 p k') = a2 (ix2 q k')) (h1 : ∀ k' : Fin 8192, x1 (ix2 0 k') = er (ix2 0 k')) :
    k1_pay1 (F := Ideal) x0 x1 (ix2 p k) = GATT a2 er (ix2 q k) := by
  rw [Cert.KernelIdeal.KPay.pay1_apply]
  unfold GATT
  exact congrArg (fun s => attnRow s k) (congrArg₂ score (funext h0) (funext h1))

theorem pay2_at (x0 : Vec Ideal S128x8192 .f32) (x1 : Vec Ideal S1x8192 .f32) (x2 : Vec Ideal S8192x64 .bf16)
    (a2 : SNN.Idx → EReal) (er : S1N.Idx → EReal) (h : SNF.Idx → EReal)
    (p : Fin 128) (f : Fin 64) (q : Fin 8192)
    (h0 : ∀ k : Fin 8192, x0 (ix2 p k) = a2 (ix2 q k)) (h1 : ∀ k : Fin 8192, x1 (ix2 0 k) = er (ix2 0 k))
    (h2 : ∀ k : Fin 8192, x2 (ix2 k f) = h (ix2 k f)) :
    k1_pay2 (F := Ideal) x0 x1 x2 (ix2 p f) = GHP a2 er h (ix2 q f) := by
  rw [Cert.KernelIdeal.KPay.pay2_apply]
  unfold GHP
  rw [show (fun k => x0 (ix2 p k)) = (fun k => a2 (ix2 q k)) from funext h0,
    show (fun k => x1 (ix2 0 k)) = (fun k => er (ix2 0 k)) from funext h1,
    show (fun k => x2 (ix2 k f)) = (fun k => h (ix2 k f)) from funext h2]

/-- The three input blocks at point t, read where the output rows say. -/
theorem blk0_read (c : Dev nD) (t : Fin cfg1.N) (p : Fin 128) (k : Fin 8192) (hq : t.val * 128 + p.val < 8192) :
    iblk1 V c 0 t (ix2 p k) = V c main_arg2 (ix2 (⟨t.val * 128 + p.val, hq⟩ : Fin 8192) k) := by
  obtain ⟨e0, e1, -⟩ := idx_facts1 t
  show V c main_arg2 (((cfg1.win 0).blk t).view.emb (ix2 p k)) = _
  refine congrArg (V c main_arg2) ?_
  funext a; apply Fin.ext
  match a with
  | ⟨0, _⟩ => show win1_0.index t (0 : Fin 2) * 128 + 1 * p.val = t.val * 128 + p.val; omega
  | ⟨1, _⟩ => show win1_0.index t (1 : Fin 2) * 8192 + 1 * k.val = k.val; omega

theorem blk1_read (c : Dev nD) (t : Fin cfg1.N) (k : Fin 8192) :
    iblk1 V c 1 t (ix2 0 k) = V c main_v7 (ix2 0 k) := by
  obtain ⟨-, -, e2, e3, -⟩ := idx_facts1 t
  show V c main_v7 (((cfg1.win 1).blk t).view.emb (ix2 0 k)) = _
  refine congrArg (V c main_v7) ?_
  funext a; apply Fin.ext
  match a with
  | ⟨0, _⟩ => show win1_1.index t (0 : Fin 2) * 1 + 1 * 0 = 0; omega
  | ⟨1, _⟩ => show win1_1.index t (1 : Fin 2) * 8192 + 1 * k.val = k.val; omega

theorem blk2_read (c : Dev nD) (t : Fin cfg1.N) (k : Fin 8192) (f : Fin 64) :
    iblk1 V c 2 t (ix2 k f) = V c main_v2 (ix2 k f) := by
  obtain ⟨-, -, -, -, e4, e5, -⟩ := idx_facts1 t
  show V c main_v2 (((cfg1.win 2).blk t).view.emb (ix2 k f)) = _
  refine congrArg (V c main_v2) ?_
  funext a; apply Fin.ext
  match a with
  | ⟨0, _⟩ => show win1_2.index t (0 : Fin 2) * 8192 + 1 * k.val = k.val; omega
  | ⟨1, _⟩ => show win1_2.index t (1 : Fin 2) * 64 + 1 * f.val = f.val; omega

theorem flushed3_eq (c : Dev nD) (t : Fin cfg1.N) :
    (dat1 V c).flushed 3 t = ((cfg1.win 3).blk t).view.read (Elt Ideal) (GATT (V c main_arg2) (V c main_v7)) := by
  show (cfg1.win 3).cut (grid1.coords t) ((dat1 V c).after 3 t) = _
  rw [after1_3]
  unfold out1_3
  rw [View.canon_unit_zero hz]
  simp only [View.ld_unit_zero (S := S128x8192) hz, View.ld_unit_zero (S := S1x8192) hz]
  obtain ⟨-, -, -, -, -, -, e6, e7, -⟩ := idx_facts1 t
  have ht : t.val < 64 := by have h1 : t.val < grid1.N := t.isLt; have h2 : grid1.N = 64 := N_1; omega
  funext y
  obtain ⟨p, k, rfl⟩ : ∃ (p : Fin 128) (k : Fin 8192), y = ix2 p k := ⟨y 0, y 1, eq_ix2 y⟩
  have hemb : ((cfg1.win 3).blk t).view.emb (ix2 p k) = ix2 (⟨t.val * 128 + p.val, by omega⟩ : Fin 8192) k := by
    funext a; apply Fin.ext
    match a with
    | ⟨0, _⟩ => show win1_3.index t (0 : Fin 2) * 128 + 1 * p.val = t.val * 128 + p.val; omega
    | ⟨1, _⟩ => show win1_3.index t (1 : Fin 2) * 8192 + 1 * k.val = k.val; omega
  show k1_pay1 (F := Ideal) (iblk1 V c 0 t) (iblk1 V c 1 t) (ix2 p k) = GATT (V c main_arg2) (V c main_v7) (((cfg1.win 3).blk t).view.emb (ix2 p k))
  rw [hemb]
  exact pay1_at (iblk1 V c 0 t) (iblk1 V c 1 t) (V c main_arg2) (V c main_v7) p k ⟨t.val * 128 + p.val, by omega⟩
    (fun k' => blk0_read V c t p k' (by omega)) (fun k' => blk1_read V c t k')

theorem flushed4_eq (c : Dev nD) (t : Fin cfg1.N) :
    (dat1 V c).flushed 4 t = ((cfg1.win 4).blk t).view.read (Elt Ideal) (GHP (V c main_arg2) (V c main_v7) (V c main_v2)) := by
  show (cfg1.win 4).cut (grid1.coords t) ((dat1 V c).after 4 t) = _
  rw [after1_4]
  unfold out1_4
  rw [View.canon_unit_zero hz]
  simp only [View.ld_unit_zero (S := S128x8192) hz, View.ld_unit_zero (S := S1x8192) hz, View.ld_unit_zero (S := S8192x64) hz]
  obtain ⟨-, -, -, -, -, -, -, -, e8, e9⟩ := idx_facts1 t
  have ht : t.val < 64 := by have h1 : t.val < grid1.N := t.isLt; have h2 : grid1.N = 64 := N_1; omega
  funext y
  obtain ⟨p, f, rfl⟩ : ∃ (p : Fin 128) (f : Fin 64), y = ix2 p f := ⟨y 0, y 1, eq_ix2 y⟩
  have hemb : ((cfg1.win 4).blk t).view.emb (ix2 p f) = ix2 (⟨t.val * 128 + p.val, by omega⟩ : Fin 8192) f := by
    funext a; apply Fin.ext
    match a with
    | ⟨0, _⟩ => show win1_4.index t (0 : Fin 2) * 128 + 1 * p.val = t.val * 128 + p.val; omega
    | ⟨1, _⟩ => show win1_4.index t (1 : Fin 2) * 64 + 1 * f.val = f.val; omega
  show k1_pay2 (F := Ideal) (iblk1 V c 0 t) (iblk1 V c 1 t) (iblk1 V c 2 t) (ix2 p f) = GHP (V c main_arg2) (V c main_v7) (V c main_v2) (((cfg1.win 4).blk t).view.emb (ix2 p f))
  rw [hemb]
  exact pay2_at (iblk1 V c 0 t) (iblk1 V c 1 t) (iblk1 V c 2 t) (V c main_arg2) (V c main_v7) (V c main_v2) p f ⟨t.val * 128 + p.val, by omega⟩
    (fun k => blk0_read V c t p k (by omega)) (fun k => blk1_read V c t k) (fun k => blk2_read V c t k f)

theorem mem_blk3 (t : Fin cfg1.N) (i : S8192x8192.Idx) :
    i ∈ ((cfg1.win 3).blk t).view.set ↔ ∀ a : Fin 2, win1_3.index t a * S128x8192.size a ≤ (i a).val ∧ (i a).val < win1_3.index t a * S128x8192.size a + S128x8192.size a := by
  show i ∈ ((View.whole main_v8_0).slice (win1_3.rect t)).set ↔ _
  rw [View.set_slice_whole, Rect.mem_set_unit]
  exact Iff.rfl

theorem mem_blk4 (t : Fin cfg1.N) (i : S8192x64.Idx) :
    i ∈ ((cfg1.win 4).blk t).view.set ↔ ∀ a : Fin 2, win1_4.index t a * S128x64.size a ≤ (i a).val ∧ (i a).val < win1_4.index t a * S128x64.size a + S128x64.size a := by
  show i ∈ ((View.whole main_v8_1).slice (win1_4.rect t)).set ↔ _
  rw [View.set_slice_whole, Rect.mem_set_unit]
  exact Iff.rfl

theorem cover3 (i : S8192x8192.Idx) : ∃ t : Fin cfg1.N, (cfg1.win 3).flush t = true ∧ i ∈ ((cfg1.win 3).blk t).view.set := by
  have hi0 : (i 0).val < 8192 := (i 0).isLt
  have hi1 : (i 1).val < 8192 := (i 1).isLt
  have hN : grid1.N = 64 := N_1
  let t : Fin cfg1.N := ⟨(i 0).val / 128, by show (i 0).val / 128 < grid1.N; omega⟩
  obtain ⟨-, -, -, -, -, -, e6, e7, -⟩ := idx_facts1 t
  have e6' : win1_3.index t (0 : Fin 2) = (i 0).val / 128 := e6
  refine ⟨t, flush1_3 t, ?_⟩
  rw [mem_blk3]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 8192 ≤ (i 1).val ∧ (i 1).val < win1_3.index t (1 : Fin 2) * 8192 + 8192; omega

theorem cover4 (i : S8192x64.Idx) : ∃ t : Fin cfg1.N, (cfg1.win 4).flush t = true ∧ i ∈ ((cfg1.win 4).blk t).view.set := by
  have hi0 : (i 0).val < 8192 := (i 0).isLt
  have hi1 : (i 1).val < 64 := (i 1).isLt
  have hN : grid1.N = 64 := N_1
  let t : Fin cfg1.N := ⟨(i 0).val / 128, by show (i 0).val / 128 < grid1.N; omega⟩
  obtain ⟨-, -, -, -, -, -, -, -, e8, e9⟩ := idx_facts1 t
  have e8' : win1_4.index t (0 : Fin 2) = (i 0).val / 128 := e8
  refine ⟨t, flush1_4 t, ?_⟩
  rw [mem_blk4]
  intro a
  match a with
  | ⟨0, _⟩ => show win1_4.index t (0 : Fin 2) * 128 ≤ (i 0).val ∧ (i 0).val < win1_4.index t (0 : Fin 2) * 128 + 128; omega
  | ⟨1, _⟩ => show win1_4.index t (1 : Fin 2) * 64 ≤ (i 1).val ∧ (i 1).val < win1_4.index t (1 : Fin 2) * 64 + 64; omega

/-- The attention array and the aggregated-feature array after region 1. -/
theorem final3 (c : Dev nD) : (dat1 V c).arrAt 3 cfg1.N = GATT (V c main_arg2) (V c main_v7) :=
  (dat1 V c).arrAt_eq_of_cover 3 (GATT (V c main_arg2) (V c main_v7)) (fun t _ => flushed3_eq V c t) cover3

theorem final4 (c : Dev nD) : (dat1 V c).arrAt 4 cfg1.N = GHP (V c main_arg2) (V c main_v7) (V c main_v2) :=
  (dat1 V c).arrAt_eq_of_cover 4 (GHP (V c main_arg2) (V c main_v7) (V c main_v2)) (fun t _ => flushed4_eq V c t) cover4

end Cert.KernelIdeal.KArr1

end
-- ==== Proof.KValue.lean ====
/-
  The two results of the idealized kernel program as functions of its five arguments: the last boundary's contents at
  the attention array and at the aggregated-feature array, walked back through the second region (its blocks cover both
  arrays), the host operations between the regions (the score row), the first region (the attention input) and the host
  operations before it (the projected features; at the ideal values a change of float format is the identity).
-/
import proofs.«151028_j68126771249441_2_alg».proof.Proof.KChain
import proofs.«151028_j68126771249441_2_alg».proof.Proof.KArr0
import proofs.«151028_j68126771249441_2_alg».proof.Proof.KArr1

set_option maxRecDepth 16384

noncomputable section

namespace Cert.KernelIdeal.KValue

open Cert.KernelIdeal Cert.KernelIdeal.Gen Cert.Spec Cert.KernelIdeal.KChain
open Idealize.ShloMosaic Idealize.ShloMosaic.TcCoe Idealize.SL.Sem Idealize.ShloMosaic.StableHlo

variable (m : (ℓ : Loc nD τ sig) → Buf (Elt Ideal) ℓ) (ρ : Dev nD → PrngReg)

/-- The attention input the first region leaves, of the node adjacency and the projected features. -/
theorem ai_eq (c : Dev nD) : W2 m ρ c (Proc.devRef .tc main_v3)
    = GAI (m ((c : Thread nD τ).loc main_arg1)) (hAttK (F := Ideal) (m ((c : Thread nD τ).loc main_arg0)) (m ((c : Thread nD τ).loc main_arg3))) := by
  refine (W2_arr m ρ c 2).trans ?_
  rw [Cert.KernelIdeal.KArr.final0]
  exact congrArg₂ GAI (pre_arg1 (W0 m ρ c)) (pre_v1 (W0 m ρ c))

/-- The score row the second region reads. -/
theorem er_eq (c : Dev nD) : V5 m ρ c main_v7
    = eRowK (F := Ideal) (GAI (m ((c : Thread nD τ).loc main_arg1)) (hAttK (F := Ideal) (m ((c : Thread nD τ).loc main_arg0)) (m ((c : Thread nD τ).loc main_arg3))))
        (m ((c : Thread nD τ).loc main_arg4)) := by
  refine (mid_v7 (W2 m ρ c)).trans ?_
  exact congrArg₂ (eRowK (F := Ideal)) (ai_eq m ρ c) ((W2_of_ne m ρ c main_arg4 (by decide)).trans (pre_arg4 (W0 m ρ c)))

/-- The edge adjacency and the node features as the second region finds them. -/
theorem a2_eq (c : Dev nD) : V5 m ρ c main_arg2 = m ((c : Thread nD τ).loc main_arg2) :=
  (mid_arg2 (W2 m ρ c)).trans ((W2_of_ne m ρ c main_arg2 (by decide)).trans (pre_arg2 (W0 m ρ c)))

theorem h_eq (c : Dev nD) : V5 m ρ c main_v2 = m ((c : Thread nD τ).loc main_arg0) :=
  (mid_v2 (W2 m ρ c)).trans ((W2_of_ne m ρ c main_v2 (by decide)).trans (pre_v2 (W0 m ρ c)))

/-- The attention array at the end of the run. -/
theorem v8_0_eq (c : Dev nD) : W6 m ρ c (Proc.devRef .tc main_v8_0)
    = GATT (m ((c : Thread nD τ).loc main_arg2))
        (eRowK (F := Ideal) (GAI (m ((c : Thread nD τ).loc main_arg1)) (hAttK (F := Ideal) (m ((c : Thread nD τ).loc main_arg0)) (m ((c : Thread nD τ).loc main_arg3))))
          (m ((c : Thread nD τ).loc main_arg4))) := by
  refine (W6_arr m ρ c 3).trans ?_
  rw [Cert.KernelIdeal.KArr1.final3, a2_eq m ρ c, er_eq m ρ c]

/-- The aggregated features at the end of the run. -/
theorem v8_1_eq (c : Dev nD) : W6 m ρ c (Proc.devRef .tc main_v8_1)
    = GHP (m ((c : Thread nD τ).loc main_arg2))
        (eRowK (F := Ideal) (GAI (m ((c : Thread nD τ).loc main_arg1)) (hAttK (F := Ideal) (m ((c : Thread nD τ).loc main_arg0)) (m ((c : Thread nD τ).loc main_arg3))))
          (m ((c : Thread nD τ).loc main_arg4)))
        (m ((c : Thread nD τ).loc main_arg0)) := by
  refine (W6_arr m ρ c 4).trans ?_
  rw [Cert.KernelIdeal.KArr1.final4, a2_eq m ρ c, er_eq m ρ c, h_eq m ρ c]

end Cert.KernelIdeal.KValue

end
-- ==== Proof.RefRun.lean ====
/- The reference program's @main as the list of its host operations, with the bodies of the three outlined
   functions it calls (leaky_relu, which calls _where, and _where_0) written out at their call sites over the
   calls' own buffers; the run of that straight line read back at the two results, as a composition of named
   stages of a graph-attention layer: the projected features, the attention input, the row of attention
   logits, the masked scores, their softmax along axis 1, and the aggregated features. -/
import proofs.«151028_j68126771249441_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 47 operations, in order: its own forty, leaky_relu's six and _where's select after the
    0.2 constant, and _where_0's two broadcasts and select after the -9e15 constant. -/
abbrev ops : List (HloOp τ sig (Elt F)) :=
  [ binary main_arg0 main_arg3 main_v0 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    nullary main_cst (constant S_ .f32 0x00000000#32),
    unary main_cst main_v1 (broadcastInDim S8192x8192 ![] bcast_S_S8192x8192 : (⟨S_, .f32⟩ : BufTy).Contents (Elt F) → (⟨S8192x8192, .f32⟩ : BufTy).Contents (Elt F)),
    binary main_arg1 main_v1 main_v2 (cmpf .ogt : (⟨S8192x8192, .f32⟩ : BufTy).Contents (Elt F) → (⟨S8192x8192, .f32⟩ : BufTy).Contents (Elt F) → (⟨S8192x8192, .i1⟩ : BufTy).Contents (Elt F)),
    unary main_v2 main_v3 (uitofp .f32 : (⟨S8192x8192, .i1⟩ : BufTy).Contents (Elt F) → (⟨S8192x8192, .f32⟩ : BufTy).Contents (Elt F)),
    binary main_v3 main_v0 main_v4 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    nullary main_cst_0 (constant S_ .f32 0x00000000#32),
    unary main_cst_0 main_v5 (broadcastInDim S8192x8192 ![] bcast_S_S8192x8192 : (⟨S_, .f32⟩ : BufTy).Contents (Elt F) → (⟨S8192x8192, .f32⟩ : BufTy).Contents (Elt F)),
    binary main_arg1 main_v5 main_v6 (cmpf .olt : (⟨S8192x8192, .f32⟩ : BufTy).Contents (Elt F) → (⟨S8192x8192, .f32⟩ : BufTy).Contents (Elt F) → (⟨S8192x8192, .i1⟩ : BufTy).Contents (Elt F)),
    unary main_v6 main_v7 (uitofp .f32 : (⟨S8192x8192, .i1⟩ : BufTy).Contents (Elt F) → (⟨S8192x8192, .f32⟩ : BufTy).Contents (Elt F)),
    binary main_v7 main_v0 main_v8 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_v4 main_v8 main_v9 (subf : (⟨S8192x64, .f32⟩ : BufTy).Contents (Elt F) → (⟨S8192x64, .f32⟩ : BufTy).Contents (Elt F) → (⟨S8192x64, .f32⟩ : BufTy).Contents (Elt F)),
    unary main_v9 main_v10 (Host.absf : (⟨S8192x64, .f32⟩ : BufTy).Contents (Elt F) → (⟨S8192x64, .f32⟩ : BufTy).Contents (Elt F)),
    binary main_v10 main_arg4 main_v11 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S8192x1 ![] bcast_S_S8192x1),
    TRef.binary (.of main_v11 : TRef sig ⟨S8192x1, .f32⟩) main_call0.v0 main_call0.v1 (cmpf .oge),
    TRef.unary (.of main_cst_1 : TRef sig ⟨S_, .f32⟩) main_call0.v2 id,
    TRef.unary main_call0.v2 main_call0.v3 (broadcastInDim S8192x1 ![] bcast_S_S8192x1),
    TRef.binary main_call0.v3 (.of main_v11 : TRef sig ⟨S8192x1, .f32⟩) main_call0.v4 mulf,
    TRef.ternary main_call0.v1 (.of main_v11 : TRef sig ⟨S8192x1, .f32⟩) main_call0.v4 main_call0.call0.v0 select,
    reshape main_v12 main_v13 rfl shapeCasts_S8192x1_S8192,
    unary main_v13 main_v14 (broadcastInDim S1x8192 ![1] bcast_S8192_S1x8192_1 : (⟨S8192, .f32⟩ : BufTy).Contents (Elt F) → (⟨S1x8192, .f32⟩ : BufTy).Contents (Elt F)),
    nullary main_cst_2 (constant S_ .f32 0x00000000#32),
    unary main_cst_2 main_v15 (broadcastInDim S8192x8192 ![] bcast_S_S8192x8192 : (⟨S_, .f32⟩ : BufTy).Contents (Elt F) → (⟨S8192x8192, .f32⟩ : BufTy).Contents (Elt F)),
    binary main_arg2 main_v15 main_v16 (cmpf .une : (⟨S8192x8192, .f32⟩ : BufTy).Contents (Elt F) → (⟨S8192x8192, .f32⟩ : BufTy).Contents (Elt F) → (⟨S8192x8192, .i1⟩ : BufTy).Contents (Elt F)),
    nullary main_cst_3 (constant S_ .f32 0xD9FFCB9E#32),
    TRef.unary (.of main_v14 : TRef sig ⟨S1x8192, .f32⟩) main_call1.v0 (broadcastInDim S8192x8192 ![0, 1] bcast_S1x8192_S8192x8192_0_1),
    TRef.unary (.of main_cst_3 : TRef sig ⟨S_, .f32⟩) main_call1.v1 (broadcastInDim S8192x8192 ![] bcast_S_S8192x8192),
    TRef.ternary (.of main_v16 : TRef sig ⟨S8192x8192, .i1⟩) main_call1.v0 main_call1.v1 main_call1.v2 select,
    nullary main_cst_4 (constant S_ .f32 0xFF800000#32),
    binary main_v17 main_cst_4 main_v18 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_5 (constant S_ .f32 0xFF800000#32),
    unary main_cst_5 main_v19 (broadcastInDim S8192 ![] bcast_S_S8192 : (⟨S_, .f32⟩ : BufTy).Contents (Elt F) → (⟨S8192, .f32⟩ : BufTy).Contents (Elt F)),
    binary main_v19 main_v18 main_v20 (maximumf : (⟨S8192, .f32⟩ : BufTy).Contents (Elt F) → (⟨S8192, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v17 main_v22 main_v23 (subf : (⟨S8192x8192, .f32⟩ : BufTy).Contents (Elt F) → (⟨S8192x8192, .f32⟩ : BufTy).Contents (Elt F) → (⟨S8192x8192, .f32⟩ : BufTy).Contents (Elt F)),
    unary main_v23 main_v24 (Host.exp : (⟨S8192x8192, .f32⟩ : BufTy).Contents (Elt F) → (⟨S8192x8192, .f32⟩ : BufTy).Contents (Elt F)),
    nullary main_cst_6 (constant S_ .f32 0x00000000#32),
    binary main_v24 main_cst_6 main_v25 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v25 main_v26 (broadcastInDim S8192x1 ![0] bcast_S8192_S8192x1_0 : (⟨S8192, .f32⟩ : BufTy).Contents (Elt F) → (⟨S8192x1, .f32⟩ : BufTy).Contents (Elt F)),
    unary main_v26 main_v27 (broadcastInDim S8192x8192 ![0, 1] bcast_S8192x1_S8192x8192_0_1 : (⟨S8192x1, .f32⟩ : BufTy).Contents (Elt F) → (⟨S8192x8192, .f32⟩ : BufTy).Contents (Elt F)),
    binary main_v24 main_v27 main_v28 (Host.divf : (⟨S8192x8192, .f32⟩ : BufTy).Contents (Elt F) → (⟨S8192x8192, .f32⟩ : BufTy).Contents (Elt F) → (⟨S8192x8192, .f32⟩ : BufTy).Contents (Elt F)),
    binary main_v28 main_arg2 main_v29 (mulf : (⟨S8192x8192, .f32⟩ : BufTy).Contents (Elt F) → (⟨S8192x8192, .f32⟩ : BufTy).Contents (Elt F) → (⟨S8192x8192, .f32⟩ : BufTy).Contents (Elt F)),
    binary main_v29 main_arg0 main_v30 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)) ]

-- 47 binds re-associated: the rewrite under the chain recurses once per statement
set_option maxRecDepth 1024 in
/-- @main is that straight line: the three functions' definitions unfolded at their calls, both sides are one
    chain of host steps once sequencing is re-associated. -/
theorem main_eq (c : Dev nD) : main (F := F) c = seq ops := by
  simp only [main, fn_leaky_relu.body, fn_where.body, fn_where_0.body, seq, bind_assoc, pure_bind]

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., nullary_bufs_sub .., unary_bufs_sub .., binary_bufs_sub .., unary_bufs_sub .., binary_bufs_sub ..,
    nullary_bufs_sub .., unary_bufs_sub .., binary_bufs_sub .., unary_bufs_sub .., binary_bufs_sub .., binary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., reshape_bufs_sub .., unary_bufs_sub ..,
    nullary_bufs_sub .., unary_bufs_sub .., binary_bufs_sub .., nullary_bufs_sub .., unary_bufs_sub .., unary_bufs_sub ..,
    ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., binary_bufs_sub ..⟩

/-- The projected features: the node features times the weight matrix. -/
def hAtt (a0 : (⟨S8192x64, .f32⟩ : BufTy).Contents (Elt F)) (a3 : (⟨S64x64, .f32⟩ : BufTy).Contents (Elt F)) : (⟨S8192x64, .f32⟩ : BufTy).Contents (Elt F) :=
  Host.dotGeneral dot_S8192x64_S64x64_S8192x64_1_0_0_1_n_n none a0 a3

/-- The attention input: the absolute value of the difference of the features summed over the positive
    entries of the signed adjacency and those summed over its negative entries. -/
def aInput (a1 : (⟨S8192x8192, .f32⟩ : BufTy).Contents (Elt F)) (ha : (⟨S8192x64, .f32⟩ : BufTy).Contents (Elt F)) : (⟨S8192x64, .f32⟩ : BufTy).Contents (Elt F) :=
  Host.absf (subf
    (Host.dotGeneral dot_S8192x8192_S8192x64_S8192x64_1_0_0_1_n_n none (uitofp .f32 (cmpf .ogt a1 (broadcastInDim S8192x8192 ![] bcast_S_S8192x8192 (constant S_ .f32 0x00000000#32 : (⟨S_, .f32⟩ : BufTy).Contents (Elt F)) : (⟨S8192x8192, .f32⟩ : BufTy).Contents (Elt F)))) ha)
    (Host.dotGeneral dot_S8192x8192_S8192x64_S8192x64_1_0_0_1_n_n none (uitofp .f32 (cmpf .olt a1 (broadcastInDim S8192x8192 ![] bcast_S_S8192x8192 (constant S_ .f32 0x00000000#32 : (⟨S_, .f32⟩ : BufTy).Contents (Elt F)) : (⟨S8192x8192, .f32⟩ : BufTy).Contents (Elt F)))) ha))

/-- The row of attention logits: the attention input times the attention vector, through the leaky rectifier
    of slope 0.2 (the value where it is at least zero, 0.2 times it elsewhere), laid out as one row. -/
def eRow (ai : (⟨S8192x64, .f32⟩ : BufTy).Contents (Elt F)) (a4 : (⟨S64x1, .f32⟩ : BufTy).Contents (Elt F)) : (⟨S1x8192, .f32⟩ : BufTy).Contents (Elt F) :=
  broadcastInDim S1x8192 ![1] bcast_S8192_S1x8192_1
    (shapeCast S8192
      (select
        (cmpf .oge (Host.dotGeneral dot_S8192x64_S64x1_S8192x1_1_0_0_1_n_n none ai a4)
          (broadcastInDim S8192x1 ![] bcast_S_S8192x1 (constant S_ .f32 0x00000000#32 : (⟨S_, .f32⟩ : BufTy).Contents (Elt F)) : (⟨S8192x1, .f32⟩ : BufTy).Contents (Elt F)))
        (Host.dotGeneral dot_S8192x64_S64x1_S8192x1_1_0_0_1_n_n none ai a4)
        (mulf (broadcastInDim S8192x1 ![] bcast_S_S8192x1 (id (constant S_ .f32 0x3E4CCCCD#32 : (⟨S_, .f32⟩ : BufTy).Contents (Elt F))) : (⟨S8192x1, .f32⟩ : BufTy).Contents (Elt F))
          (Host.dotGeneral dot_S8192x64_S64x1_S8192x1_1_0_0_1_n_n none ai a4)) : (⟨S8192x1, .f32⟩ : BufTy).Contents (Elt F))
      shapeCasts_S8192x1_S8192 : (⟨S8192, .f32⟩ : BufTy).Contents (Elt F))

/-- The masked scores: the logit row at every row, kept where the adjacency is not zero and -9e15 elsewhere. -/
def scores (a2 : (⟨S8192x8192, .f32⟩ : BufTy).Contents (Elt F)) (er : (⟨S1x8192, .f32⟩ : BufTy).Contents (Elt F)) : (⟨S8192x8192, .f32⟩ : BufTy).Contents (Elt F) :=
  select (cmpf .une a2 (broadcastInDim S8192x8192 ![] bcast_S_S8192x8192 (constant S_ .f32 0x00000000#32 : (⟨S_, .f32⟩ : BufTy).Contents (Elt F)) : (⟨S8192x8192, .f32⟩ : BufTy).Contents (Elt F)))
    (broadcastInDim S8192x8192 ![0, 1] bcast_S1x8192_S8192x8192_0_1 er : (⟨S8192x8192, .f32⟩ : BufTy).Contents (Elt F))
    (broadcastInDim S8192x8192 ![] bcast_S_S8192x8192 (constant S_ .f32 0xD9FFCB9E#32 : (⟨S_, .f32⟩ : BufTy).Contents (Elt F)) : (⟨S8192x8192, .f32⟩ : BufTy).Contents (Elt F))

/-- The attention rows: the softmax of the masked scores along axis 1 — each row less its maximum (taken
    against minus infinity), exponentiated, divided by its row sum. -/
def attn (s : (⟨S8192x8192, .f32⟩ : BufTy).Contents (Elt F)) : (⟨S8192x8192, .f32⟩ : BufTy).Contents (Elt F) :=
  Host.divf
    (Host.exp (subf s
      (broadcastInDim S8192x8192 ![0, 1] bcast_S8192x1_S8192x8192_0_1
        (broadcastInDim S8192x1 ![0] bcast_S8192_S8192x1_0
          (maximumf (broadcastInDim S8192 ![] bcast_S_S8192 (constant S_ .f32 0xFF800000#32 : (⟨S_, .f32⟩ : BufTy).Contents (Elt F)) : (⟨S8192, .f32⟩ : BufTy).Contents (Elt F))
            (Host.reduce FloatOps.maximumf s (constant S_ .f32 0xFF800000#32 : (⟨S_, .f32⟩ : BufTy).Contents (Elt F)) reducesTo_S8192x8192_S8192_d1 h_S_)
            : (⟨S8192, .f32⟩ : BufTy).Contents (Elt F)) : (⟨S8192x1, .f32⟩ : BufTy).Contents (Elt F)) : (⟨S8192x8192, .f32⟩ : BufTy).Contents (Elt F))))
    (broadcastInDim S8192x8192 ![0, 1] bcast_S8192x1_S8192x8192_0_1
      (broadcastInDim S8192x1 ![0] bcast_S8192_S8192x1_0
        (Host.reduceAdd
          (Host.exp (subf s
            (broadcastInDim S8192x8192 ![0, 1] bcast_S8192x1_S8192x8192_0_1
              (broadcastInDim S8192x1 ![0] bcast_S8192_S8192x1_0
                (maximumf (broadcastInDim S8192 ![] bcast_S_S8192 (constant S_ .f32 0xFF800000#32 : (⟨S_, .f32⟩ : BufTy).Contents (Elt F)) : (⟨S8192, .f32⟩ : BufTy).Contents (Elt F))
                  (Host.reduce FloatOps.maximumf s (constant S_ .f32 0xFF800000#32 : (⟨S_, .f32⟩ : BufTy).Contents (Elt F)) reducesTo_S8192x8192_S8192_d1 h_S_)
                  : (⟨S8192, .f32⟩ : BufTy).Contents (Elt F)) : (⟨S8192x1, .f32⟩ : BufTy).Contents (Elt F)) : (⟨S8192x8192, .f32⟩ : BufTy).Contents (Elt F))))
          (constant S_ .f32 0x00000000#32 : (⟨S_, .f32⟩ : BufTy).Contents (Elt F)) reducesTo_S8192x8192_S8192_d1 h_S_ : (⟨S8192, .f32⟩ : BufTy).Contents (Elt F))
        : (⟨S8192x1, .f32⟩ : BufTy).Contents (Elt F)) : (⟨S8192x8192, .f32⟩ : BufTy).Contents (Elt F))

/-- The aggregated features: the attention rows, times the adjacency entrywise, times the node features. -/
def hPrime (att a2 : (⟨S8192x8192, .f32⟩ : BufTy).Contents (Elt F)) (a0 : (⟨S8192x64, .f32⟩ : BufTy).Contents (Elt F)) : (⟨S8192x64, .f32⟩ : BufTy).Contents (Elt F) :=
  Host.dotGeneral dot_S8192x8192_S8192x64_S8192x64_1_0_0_1_n_n none (mulf att a2) a0

/-- The second result: the attention rows, as a function of the five arguments. -/
def res28 (a0 : (⟨S8192x64, .f32⟩ : BufTy).Contents (Elt F)) (a1 a2 : (⟨S8192x8192, .f32⟩ : BufTy).Contents (Elt F)) (a3 : (⟨S64x64, .f32⟩ : BufTy).Contents (Elt F)) (a4 : (⟨S64x1, .f32⟩ : BufTy).Contents (Elt F)) :
    (⟨S8192x8192, .f32⟩ : BufTy).Contents (Elt F) :=
  attn (scores a2 (eRow (aInput a1 (hAtt a0 a3)) a4))

/-- The first result: the aggregated features, as a function of the five arguments. -/
def res30 (a0 : (⟨S8192x64, .f32⟩ : BufTy).Contents (Elt F)) (a1 a2 : (⟨S8192x8192, .f32⟩ : BufTy).Contents (Elt F)) (a3 : (⟨S64x64, .f32⟩ : BufTy).Contents (Elt F)) (a4 : (⟨S64x1, .f32⟩ : BufTy).Contents (Elt F)) :
    (⟨S8192x64, .f32⟩ : BufTy).Contents (Elt F) :=
  hPrime (res28 a0 a1 a2 a3 a4) a2 a0

/-! ## The run read back

The buffers after the line are a fold of the operations' results; at a result buffer the fold is the
composition of the stages above, at an argument what the argument held. The large host operations (the two
row reductions, the exponential, the division, the absolute value) stay folded throughout, and a contraction
is a field of the float operations, opaque at any float values: the equations never look inside them. -/

attribute [local irreducible] Host.reduce Host.reduceAdd Host.exp Host.divf Host.absf in
/-- After the line the second result's buffer holds the attention rows of the arguments. -/
theorem v28_eq (V : Valuation τ sig (Elt F)) :
    after ops V (main_v28 : DevRef τ sig) = res28 (V (main_arg0 : DevRef τ sig)) (V (main_arg1 : DevRef τ sig)) (V (main_arg2 : DevRef τ sig)) (V (main_arg3 : DevRef τ sig)) (V (main_arg4 : DevRef τ sig)) := by
  after_results_simp
  rfl

attribute [local irreducible] Host.reduce Host.reduceAdd Host.exp Host.divf Host.absf in
/-- After the line the first result's buffer holds the aggregated features of the arguments. -/
theorem v30_eq (V : Valuation τ sig (Elt F)) :
    after ops V (main_v30 : DevRef τ sig) = res30 (V (main_arg0 : DevRef τ sig)) (V (main_arg1 : DevRef τ sig)) (V (main_arg2 : DevRef τ sig)) (V (main_arg3 : DevRef τ sig)) (V (main_arg4 : DevRef τ sig)) := by
  after_results_simp
  rfl

/-- No operation writes argument 0: it ends as it began. -/
theorem arg0_eq (V : Valuation τ sig (Elt F)) :
    after ops V (main_arg0 : DevRef τ sig) = V (main_arg0 : DevRef τ sig) := by
  after_results_simp

/-- No operation writes argument 1: it ends as it began. -/
theorem arg1_eq (V : Valuation τ sig (Elt F)) :
    after ops V (main_arg1 : DevRef τ sig) = V (main_arg1 : DevRef τ sig) := by
  after_results_simp

/-- No operation writes argument 2: it ends as it began. -/
theorem arg2_eq (V : Valuation τ sig (Elt F)) :
    after ops V (main_arg2 : DevRef τ sig) = V (main_arg2 : DevRef τ sig) := by
  after_results_simp

/-- No operation writes argument 3: it ends as it began. -/
theorem arg3_eq (V : Valuation τ sig (Elt F)) :
    after ops V (main_arg3 : DevRef τ sig) = V (main_arg3 : DevRef τ sig) := by
  after_results_simp

/-- No operation writes argument 4: it ends as it began. -/
theorem arg4_eq (V : Valuation τ sig (Elt F)) :
    after ops V (main_arg4 : DevRef τ sig) = V (main_arg4 : DevRef τ sig) := by
  after_results_simp

/-- On every device, for any float values, from any memory with zero counters: every weakly fair execution of
    @main terminates with the first result at the aggregated features and the second at the attention rows of
    the arguments' launch contents, and the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = res30
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
      ∧ r.2.mem ((c.tc : Thread nD τ).loc main_v28) = res28
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v30).trans (v30_eq _), (h c main_v28).trans (v28_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefVal.lean ====
/- The reference's stages read index by index on the extended reals: the attention input as the absolute
   difference of the positive-part and negative-part sums, the softmax of the masked scores as the row
   functions of the shared mathematics, and the aggregated features as the weighted feature sum; with them
   the two results as those whole-array functions of the logit row. -/
import proofs.«151028_j68126771249441_2_alg».proof.Proof.RefRun
import proofs.«151028_j68126771249441_2_alg».proof.Proof.SpecArr
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

namespace Cert.ReferenceIdeal.RefVal

open Cert.ReferenceIdeal Cert.ReferenceIdeal.Gen Idealize.ShloMosaic Idealize.ShloMosaic.ValueIdx

/-! ## The contraction of an 8192 × 8192 array with an 8192 × 64 array, at an entry -/

/-- The contraction index of that product is its one coordinate, in `Fin 8192`. -/
noncomputable def eD : (dot_S8192x8192_S8192x64_S8192x64_1_0_0_1_n_n).contr.Idx ≃ Fin 8192 :=
  contrEquiv1 dot_S8192x8192_S8192x64_S8192x64_1_0_0_1_n_n 8192 rfl rfl

/-- At entry (r, f) and contraction coordinate k the left operand is read at (r, k). -/
theorem lhsIdx_eD (r : Fin 8192) (f : Fin 64) (k : Fin 8192) :
    (dot_S8192x8192_S8192x64_S8192x64_1_0_0_1_n_n).lhsIdx (ix2 r f) (eD.symm k) = ix2 r k := by
  funext a
  apply Fin.ext
  match a with
  | ⟨0, _⟩ => rfl
  | ⟨1, _⟩ =>
    exact ((dot_S8192x8192_S8192x64_S8192x64_1_0_0_1_n_n).lhsIdx_val_of_single (cl := 1) rfl (ix2 r f) (eD.symm k)).trans
      (contrEquiv1_symm_val dot_S8192x8192_S8192x64_S8192x64_1_0_0_1_n_n 8192 rfl rfl k)

/-- At entry (r, f) and contraction coordinate k the right operand is read at (k, f). -/
theorem rhsIdx_eD (r : Fin 8192) (f : Fin 64) (k : Fin 8192) :
    (dot_S8192x8192_S8192x64_S8192x64_1_0_0_1_n_n).rhsIdx (ix2 r f) (eD.symm k) = ix2 k f := by
  funext a
  apply Fin.ext
  match a with
  | ⟨0, _⟩ =>
    exact ((dot_S8192x8192_S8192x64_S8192x64_1_0_0_1_n_n).rhsIdx_val_of_single (cr := 0) rfl (ix2 r f) (eD.symm k)).trans
      (contrEquiv1_symm_val dot_S8192x8192_S8192x64_S8192x64_1_0_0_1_n_n 8192 rfl rfl k)
  | ⟨1, _⟩ => rfl

/-- The product at entry (r, f): the sum over k of the left operand at (r, k) times the right at (k, f). -/
theorem dotB_apply (x : FVec Ideal S8192x8192 .f32) (h : FVec Ideal S8192x64 .f32) (r : Fin 8192) (f : Fin 64) :
    Host.dotGeneral (F := Ideal) dot_S8192x8192_S8192x64_S8192x64_1_0_0_1_n_n none x h (ix2 r f)
      = ∑ k : Fin 8192, x (ix2 r k) * h (ix2 k f) := by
  simp only [Host.dotGeneral]
  rw [Ideal.dotGeneral_apply, ← Equiv.sum_comp eD.symm]
  exact Finset.sum_congr rfl fun k _ => by rw [lhsIdx_eD, rhsIdx_eD]

/-! ## The stages -/

/-- The projected features of finite inputs are finite: each is a finite sum of products of real numbers. -/
theorem hAtt_finite (a0 : FVec Ideal S8192x64 .f32) (a3 : FVec Ideal S64x64 .f32)
    (h0 : ∀ j, ∃ r : ℝ, a0 j = (r : EReal)) (h3 : ∀ j, ∃ r : ℝ, a3 j = (r : EReal)) :
    ∀ j, ∃ r : ℝ, RefRun.hAtt (F := Ideal) a0 a3 j = (r : EReal) := by
  intro j
  choose r0 hr0 using h0
  choose r3 hr3 using h3
  refine ⟨∑ k : (dot_S8192x64_S64x64_S8192x64_1_0_0_1_n_n).contr.Idx,
    r0 ((dot_S8192x64_S64x64_S8192x64_1_0_0_1_n_n).lhsIdx j k) * r3 ((dot_S8192x64_S64x64_S8192x64_1_0_0_1_n_n).rhsIdx j k), ?_⟩
  unfold RefRun.hAtt
  simp only [Host.dotGeneral]
  rw [Ideal.dotGeneral_apply, ← Cert.Spec.coe_sum]
  exact Finset.sum_congr rfl fun k _ => by rw [hr0, hr3, EReal.coe_mul]

/-- The attention input, entry by entry: the absolute value of the positive-part sum less the negative-part sum. -/
theorem aInput_eq (a1 : FVec Ideal S8192x8192 .f32) (ha : FVec Ideal S8192x64 .f32) :
    RefRun.aInput (F := Ideal) a1 ha = Cert.Spec.GAIR a1 ha := by
  funext i
  obtain ⟨r, f, rfl⟩ : ∃ (r : Fin 8192) (f : Fin 64), i = ix2 r f := ⟨i 0, i 1, eq_ix2 i⟩
  unfold RefRun.aInput
  show max (Host.dotGeneral (F := Ideal) dot_S8192x8192_S8192x64_S8192x64_1_0_0_1_n_n none _ ha (ix2 r f)
        - Host.dotGeneral (F := Ideal) dot_S8192x8192_S8192x64_S8192x64_1_0_0_1_n_n none _ ha (ix2 r f))
      (-(Host.dotGeneral (F := Ideal) dot_S8192x8192_S8192x64_S8192x64_1_0_0_1_n_n none _ ha (ix2 r f)
        - Host.dotGeneral (F := Ideal) dot_S8192x8192_S8192x64_S8192x64_1_0_0_1_n_n none _ ha (ix2 r f))) = _
  rw [dotB_apply, dotB_apply]
  rfl

/-- The masked scores at entry (r, k): the logit of column k where the edge weight at (r, k) is not zero,
    the fill elsewhere. -/
theorem scores_apply (a2 : FVec Ideal S8192x8192 .f32) (er : FVec Ideal S1x8192 .f32) (r k : Fin 8192) :
    RefRun.scores (F := Ideal) a2 er (ix2 r k)
      = Cert.Spec.score (fun k' => a2 (ix2 r k')) (fun k' => er (ix2 (n0 := 1) (n1 := 8192) 0 k')) k := by
  unfold RefRun.scores Cert.Spec.score
  show Scalar.select (Ideal.cmp .une (a2 (ix2 r k)) (Ideal.ofBits .f32 0x00000000#32))
      (broadcastInDim S8192x8192 ![0, 1] bcast_S1x8192_S8192x8192_0_1 er (ix2 r k)) (Ideal.ofBits .f32 0xD9FFCB9E#32) = _
  rw [broadcastInDim_apply ![0, 1] bcast_S1x8192_S8192x8192_0_1 er (ix2 r k) (ix2 (n0 := 1) (n1 := 8192) 0 k)
    (fun a => by match a with | ⟨0, _⟩ => rfl | ⟨1, _⟩ => rfl)]
  rfl

/-- The witness, at the literal shapes, that dropping axis 1 of an 8192 × 8192 array leaves 8192 entries. -/
theorem reduces_d1 : S8192x8192.Reduces [1] S8192 := by decide

/-- Row index r with column coordinate k inserted is the entry (r, k). -/
theorem lift_d1 (r k : Fin 8192) : reduces_d1.lift (ix1 r) k = ix2 r k :=
  funext fun a => Fin.ext (by match a with | ⟨0, _⟩ => rfl | ⟨1, _⟩ => rfl)

/-- A column of row values laid along the rows, read at entry (r, c): the value of row r. -/
theorem rowBcast_apply (v : FVec Ideal S8192 .f32) (r c : Fin 8192) :
    (broadcastInDim S8192x8192 ![0, 1] bcast_S8192x1_S8192x8192_0_1
      (broadcastInDim S8192x1 ![0] bcast_S8192_S8192x1_0 v : FVec Ideal S8192x1 .f32) : FVec Ideal S8192x8192 .f32) (ix2 r c)
      = v (ix1 r) := by
  rw [broadcastInDim_apply ![0, 1] bcast_S8192x1_S8192x8192_0_1 _ (ix2 r c) (ix2 (n0 := 8192) (n1 := 1) r 0)
    (fun a => by match a with | ⟨0, _⟩ => rfl | ⟨1, _⟩ => rfl)]
  exact broadcastInDim_apply ![0] bcast_S8192_S8192x1_0 v (ix2 (n0 := 8192) (n1 := 1) r 0) (ix1 r)
    (fun a => by match a with | ⟨0, _⟩ => rfl)

/-- A fold by the ideal maximum is the fold by `max`, over any index range. -/
theorem fold_maximumf_eq {n : Nat} (b : EReal) (f : Fin n → EReal) :
    (Finset.univ : Finset (Fin n)).fold (FloatOps.maximumf (F := Ideal) (φ := .f32)) b f
      = (Finset.univ : Finset (Fin n)).fold max b f := rfl

/-- The maximum of row r, reduced along axis 1 from minus infinity: the fold of the row. -/
theorem reduceMax_row (s : FVec Ideal S8192x8192 .f32) (r : Fin 8192) :
    Host.reduce FloatOps.maximumf s (constant (F := Ideal) S_ .f32 0xFF800000#32) reducesTo_S8192x8192_S8192_d1 h_S_ (ix1 r)
      = Cert.Spec.rowMax (fun k => s (ix2 r k)) := by
  rw [Host.reduce_eq_fold_single FloatOps.maximumf s _ reducesTo_S8192x8192_S8192_d1 reduces_d1 h_S_ (ix1 r)]
  have hf : (s ∘ reduces_d1.lift (ix1 r)) = fun k => s (ix2 r k) := funext fun k => congrArg s (lift_d1 r k)
  rw [hf]
  exact fold_maximumf_eq (n := 8192) (Ideal.ofBits .f32 0xFF800000#32) (fun k => s (ix2 r k))

attribute [local irreducible] Host.reduce Cert.Spec.rowMax in
/-- The row maximum the softmax subtracts, at row r: the fold of the row from minus infinity (the further
    maximum with minus infinity changes nothing). -/
theorem rowMax_apply (s : FVec Ideal S8192x8192 .f32) (r : Fin 8192) :
    (maximumf (broadcastInDim S8192 ![] bcast_S_S8192 (constant (F := Ideal) S_ .f32 0xFF800000#32) : FVec Ideal S8192 .f32)
      (Host.reduce FloatOps.maximumf s (constant (F := Ideal) S_ .f32 0xFF800000#32) reducesTo_S8192x8192_S8192_d1 h_S_)
      : FVec Ideal S8192 .f32) (ix1 r)
      = Cert.Spec.rowMax (fun k => s (ix2 r k)) := by
  refine (maximumf_apply _ _ (ix1 r)).trans ?_
  rw [reduceMax_row, broadcastInDim_scalar_apply, constant_apply]
  exact Cert.Spec.max_rowMax _

/-- The host exponential at an index is the exponential of the element. -/
theorem hostExp_apply {s : Shape} {φ : FTy} (x : FVec Ideal s φ) (i : s.Idx) : Host.exp x i = Ideal.exp (x i) := rfl

attribute [local irreducible] Host.reduce Host.reduceAdd Cert.Spec.rowMax in
/-- The shifted exponential at entry (r, k): the exponential of the entry less the maximum of row r. -/
theorem rowExp_apply (s : FVec Ideal S8192x8192 .f32) (r k : Fin 8192) :
    (Host.exp (subf s
        (broadcastInDim S8192x8192 ![0, 1] bcast_S8192x1_S8192x8192_0_1
          (broadcastInDim S8192x1 ![0] bcast_S8192_S8192x1_0
            (maximumf (broadcastInDim S8192 ![] bcast_S_S8192 (constant (F := Ideal) S_ .f32 0xFF800000#32) : FVec Ideal S8192 .f32)
              (Host.reduce FloatOps.maximumf s (constant (F := Ideal) S_ .f32 0xFF800000#32) reducesTo_S8192x8192_S8192_d1 h_S_)
              : FVec Ideal S8192 .f32) : FVec Ideal S8192x1 .f32) : FVec Ideal S8192x8192 .f32)) : FVec Ideal S8192x8192 .f32) (ix2 r k)
      = Cert.Spec.rowExp (fun k' => s (ix2 r k')) k := by
  rw [hostExp_apply, subf_apply, rowBcast_apply, rowMax_apply]
  rfl

attribute [local irreducible] Host.reduce Host.reduceAdd Cert.Spec.rowMax Cert.Spec.rowExp in
/-- The softmax at entry (r, c): the softmax of row r, at c. -/
theorem attn_apply (s : FVec Ideal S8192x8192 .f32) (r c : Fin 8192) :
    RefRun.attn (F := Ideal) s (ix2 r c) = Cert.Spec.attnRow (fun k => s (ix2 r k)) c := by
  unfold RefRun.attn Cert.Spec.attnRow
  rw [hostDivf_apply, rowExp_apply, rowBcast_apply, hostReduceAdd_apply,
    Ideal.hostReduceAdd_single reducesTo_S8192x8192_S8192_d1 reduces_d1, constant_apply, Ideal.ofBits_zero_f32, zero_add]
  refine congrArg (Ideal.div _) ?_
  unfold Cert.Spec.rowSum
  exact Finset.sum_congr rfl fun k _ => (congrArg _ (lift_d1 r k)).trans (rowExp_apply s r k)

attribute [local irreducible] Cert.Spec.attnRow in
/-- The attention rows of the masked scores, entry by entry: the softmax of each row of masked scores. -/
theorem attn_scores_eq (a2 : FVec Ideal S8192x8192 .f32) (er : FVec Ideal S1x8192 .f32) :
    RefRun.attn (F := Ideal) (RefRun.scores (F := Ideal) a2 er) = Cert.Spec.GATT a2 er := by
  funext i
  obtain ⟨r, c, rfl⟩ : ∃ (r : Fin 8192) (c : Fin 8192), i = ix2 r c := ⟨i 0, i 1, eq_ix2 i⟩
  rw [attn_apply]
  exact congrArg (fun s' => Cert.Spec.attnRow s' c) (funext fun k => scores_apply a2 er r k)

attribute [local irreducible] Cert.Spec.attnRow in
/-- The aggregated features, entry by entry: the attention row weighted by the edge row against a feature column. -/
theorem hPrime_eq (a2 : FVec Ideal S8192x8192 .f32) (er : FVec Ideal S1x8192 .f32) (a0 : FVec Ideal S8192x64 .f32) :
    RefRun.hPrime (F := Ideal) (Cert.Spec.GATT a2 er) a2 a0 = Cert.Spec.GHP a2 er a0 := by
  funext i
  obtain ⟨r, f, rfl⟩ : ∃ (r : Fin 8192) (f : Fin 64), i = ix2 r f := ⟨i 0, i 1, eq_ix2 i⟩
  unfold RefRun.hPrime Cert.Spec.GHP Cert.Spec.hpRow
  rw [dotB_apply]
  exact Finset.sum_congr rfl fun k _ => rfl

/-- The second result of finite inputs: the attention rows over the logit row of the signed-sum attention input. -/
theorem res28_eq (a0 : FVec Ideal S8192x64 .f32) (a1 a2 : FVec Ideal S8192x8192 .f32) (a3 : FVec Ideal S64x64 .f32)
    (a4 : FVec Ideal S64x1 .f32) (h0 : ∀ j, ∃ r : ℝ, a0 j = (r : EReal)) (h3 : ∀ j, ∃ r : ℝ, a3 j = (r : EReal)) :
    RefRun.res28 (F := Ideal) a0 a1 a2 a3 a4
      = Cert.Spec.GATT a2 (RefRun.eRow (F := Ideal) (Cert.Spec.GAI a1 (RefRun.hAtt (F := Ideal) a0 a3)) a4) := by
  have e : RefRun.aInput (F := Ideal) a1 (RefRun.hAtt (F := Ideal) a0 a3) = Cert.Spec.GAI a1 (RefRun.hAtt (F := Ideal) a0 a3) :=
    (aInput_eq a1 _).trans (Cert.Spec.GAI_eq_GAIR a1 _ (hAtt_finite a0 a3 h0 h3)).symm
  unfold RefRun.res28
  rw [e]
  exact attn_scores_eq _ _

/-- The first result of finite inputs: the aggregated features over the same logit row. -/
theorem res30_eq (a0 : FVec Ideal S8192x64 .f32) (a1 a2 : FVec Ideal S8192x8192 .f32) (a3 : FVec Ideal S64x64 .f32)
    (a4 : FVec Ideal S64x1 .f32) (h0 : ∀ j, ∃ r : ℝ, a0 j = (r : EReal)) (h3 : ∀ j, ∃ r : ℝ, a3 j = (r : EReal)) :
    RefRun.res30 (F := Ideal) a0 a1 a2 a3 a4
      = Cert.Spec.GHP a2 (RefRun.eRow (F := Ideal) (Cert.Spec.GAI a1 (RefRun.hAtt (F := Ideal) a0 a3)) a4) a0 := by
  unfold RefRun.res30
  rw [res28_eq a0 a1 a2 a3 a4 h0 h3]
  exact hPrime_eq _ _ _

end Cert.ReferenceIdeal.RefVal
-- ==== Proof.Finite.lean ====
/-
  From the precondition to finiteness.

  The precondition is the conjunction of five statements "every entry of the array is, in absolute value, below
  plus infinity". Read back entry by entry, each says that the entry is a real number: on the extended reals the
  absolute value of either infinity is plus infinity, which is not below itself.
-/
import proofs.«151028_j68126771249441_2_alg».proof.Proof.Gen.Pre_finite_inputs
import Idealize.ShloMosaic.PureOps.Ideal.Laws
import Idealize.ShloMosaic.Lib.ValueIdx
import Idealize.ShloMosaic.Lib.ReduceAll

noncomputable section

namespace Cert.Pre_finite_inputs.Finite

open Cert.Pre_finite_inputs Idealize.ShloMosaic

/-- The pattern of plus infinity denotes the top of the extended reals. -/
theorem ofBits_inf : Ideal.ofBits .f32 0x7F800000#32 = ⊤ := by simp [Ideal.ofBits, Ideal.ieee]

/-- An extended real whose absolute value is below plus infinity is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The strict comparison's bit is one only where the strict inequality holds. -/
theorem lt_of_cmp_olt (a b : EReal) (h : Ideal.cmp .olt a b = 1#1) : a < b := by
  unfold Ideal.cmp at h
  by_contra hn
  simp [hn] at h

/-- The scalar shape has one index. -/
instance : Subsingleton S_.Idx := ⟨fun a b => funext fun d => d.elim0⟩

/-- Where the bit "absolute value below the pattern of plus infinity" is one, the entry is a real number. -/
theorem real_of_bit {s : Shape} (x c : FVec Ideal s .f32) (hc : ∀ i, c i = Ideal.ofBits .f32 0x7F800000#32) (i : s.Idx)
    (h : cmpf .olt (Host.absf x) c i = 1#1) : ∃ r : ℝ, x i = (r : EReal) := by
  have h' : Ideal.cmp .olt (max (x i) (-(x i))) (c i) = 1#1 := h
  rw [hc i, ofBits_inf] at h'
  exact real_of_abs_lt_top _ (lt_of_cmp_olt _ _ h')

/-- Under the precondition every entry of the first and of the fourth array is a real number. -/
theorem finite_of_pre (a0 : FVec Ideal S8192x64 .f32) (a1 a2 : FVec Ideal S8192x8192 .f32) (a3 : FVec Ideal S64x64 .f32)
    (a4 : FVec Ideal S64x1 .f32) (h : Cert.Pre_finite_inputs.fn (F := Ideal) a0 a1 a2 a3 a4 = fun _ => 1#1) :
    (∀ j, ∃ r : ℝ, a0 j = (r : EReal)) ∧ (∀ j, ∃ r : ℝ, a3 j = (r : EReal)) := by
  have h0 := congrFun h ValueIdx.ix0
  obtain ⟨h18, _⟩ := IntOp.andi_eq_one.1 h0
  obtain ⟨h13, h17⟩ := IntOp.andi_eq_one.1 h18
  obtain ⟨h8, _⟩ := IntOp.andi_eq_one.1 h13
  obtain ⟨h3, _⟩ := IntOp.andi_eq_one.1 h8
  refine ⟨fun j => ?_, fun j => ?_⟩
  · exact real_of_bit a0 _ (fun _ => rfl) j (Host.reduce_andi_all _ _ _ _ _ h3 j)
  · exact real_of_bit a3 _ (fun _ => rfl) j (Host.reduce_andi_all _ _ _ _ _ h17 j)

end Cert.Pre_finite_inputs.Finite

end
-- ==== Proof.Bridge.lean ====
/-
  The two programs share their host operations between the attention input and the masked scores — the product with the
  attention vector, the leaky rectifier of slope 0.2, the reshape to one row — and the projection of the features: the
  same operations over the same shapes, so as functions they are equal by definition.
-/
import proofs.«151028_j68126771249441_2_alg».proof.Proof.KChain
import proofs.«151028_j68126771249441_2_alg».proof.Proof.RefRun
import Idealize.ShloMosaic.PureOps.Ideal

noncomputable section

namespace Cert.Bridge

open Idealize.ShloMosaic

/-- The projected features are one function in both programs. -/
theorem hAtt_eq (a0 : (⟨Cert.KernelIdeal.S8192x64, .f32⟩ : BufTy).Contents (Elt Ideal)) (a3 : (⟨Cert.KernelIdeal.S64x64, .f32⟩ : BufTy).Contents (Elt Ideal)) :
    Cert.ReferenceIdeal.RefRun.hAtt (F := Ideal) a0 a3 = Cert.KernelIdeal.KChain.hAttK (F := Ideal) a0 a3 := rfl

/-- The score row is one function of the attention input and the attention vector in both programs. -/
theorem eRow_eq (ai : (⟨Cert.KernelIdeal.S8192x64, .f32⟩ : BufTy).Contents (Elt Ideal)) (a4 : (⟨Cert.KernelIdeal.S64x1, .f32⟩ : BufTy).Contents (Elt Ideal)) :
    Cert.ReferenceIdeal.RefRun.eRow (F := Ideal) ai a4 = Cert.KernelIdeal.KChain.eRowK (F := Ideal) ai a4 := rfl

end Cert.Bridge

end
-- ==== Proof.lean ====
/-
  A graph-attention layer, computed by two tiled kernels with host operations between them, against its plain reference,
  at the ideal values (floats are extended reals, every operation exact, a change of float format the identity).

  Both programs project the node features, H = h · W. The kernel program's first region computes the attention input
  row block by row block as |sign(A) · H|; the reference computes |[A > 0] · H - [A < 0] · H|. The sign is the difference
  of the two indicators, and for FINITE H a finite sum distributes over the difference, so the two agree under the
  precondition (every input finite makes H finite); at an infinite entry of H they may part. From the attention input
  both programs apply the same host operations (the product with the attention vector, the leaky rectifier of slope
  0.2, the reshape to one row), which are carried as one function and never opened. The kernel program's second region
  computes, row block by row block, the softmax along each row of the masked scores (the score row where the edge
  weight is not zero, a large negative fill elsewhere: the maximum, the shifted exponentials, their sum, the quotient)
  and the product of (attention ∘ edge) with the features; the reference computes the same row by row over the whole
  arrays, its extra maximum against minus infinity being the identity. Each region's 64 blocks of 128 rows cover its
  output arrays, so each array after the run is one whole-array function of the arguments, the same for both programs.

  The frames of the two kernel programs are the generated ones; the reference's is its run with the results dropped.
  The one rewrite of the idealization (the sign bit read as a comparison with zero) is its rule's statement.
-/
import proofs.«151028_j68126771249441_2_alg».proof.Defs
import proofs.«151028_j68126771249441_2_alg».proof.Proof.Gen.Kernel
import proofs.«151028_j68126771249441_2_alg».proof.Proof.Gen.Kernel.Skeleton
import proofs.«151028_j68126771249441_2_alg».proof.Proof.Gen.Kernel.Launch
import proofs.«151028_j68126771249441_2_alg».proof.Proof.Gen.Kernel.Points
import proofs.«151028_j68126771249441_2_alg».proof.Proof.Gen.Kernel.Frame
import proofs.«151028_j68126771249441_2_alg».proof.Proof.Gen.KernelIdeal
import proofs.«151028_j68126771249441_2_alg».proof.Proof.Gen.KernelIdeal.Skeleton
import proofs.«151028_j68126771249441_2_alg».proof.Proof.Gen.KernelIdeal.Launch
import proofs.«151028_j68126771249441_2_alg».proof.Proof.Gen.KernelIdeal.Points
import proofs.«151028_j68126771249441_2_alg».proof.Proof.Gen.KernelIdeal.Frame
import proofs.«151028_j68126771249441_2_alg».proof.Proof.Gen.ReferenceIdeal
import proofs.«151028_j68126771249441_2_alg».proof.Proof.Gen.Pre_finite_inputs
import proofs.«151028_j68126771249441_2_alg».proof.Proof.KRun
import proofs.«151028_j68126771249441_2_alg».proof.Proof.KValue
import proofs.«151028_j68126771249441_2_alg».proof.Proof.RefRun
import proofs.«151028_j68126771249441_2_alg».proof.Proof.RefVal
import proofs.«151028_j68126771249441_2_alg».proof.Proof.Finite
import proofs.«151028_j68126771249441_2_alg».proof.Proof.Bridge
import Idealize.ShloMosaic.Adequacy
import Idealize.ShloMosaic.Init

noncomputable section

namespace Cert.Proof

open Idealize.ShloMosaic Idealize.SL.Sem Cert.Spec

theorem frame_p : Cert.frame_Kernel := fun m ρ _ => Cert.Kernel.Gen.frame m ρ

theorem frame_pi : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealization's one rewrite: one with the sign bit of x is -1 where x < 0 and 1 elsewhere. -/
theorem preserves : Cert.preserves_Kernel_KernelIdeal := IdealRules.sign_bit.statement Cert.KernelIdeal.S128x8192 .f32

/-- Both programs end with the aggregated features and the attention matrix at the same functions of the arguments. -/
theorem algebraic : Cert.algebraic_KernelIdeal_ReferenceIdeal := by
  intro m ρ m' ρ' hpre hagree
  refine ⟨fun c => GHP (m ((c.tc : Thread Cert.KernelIdeal.nD Cert.KernelIdeal.τ).loc Cert.KernelIdeal.main_arg2))
            (Cert.KernelIdeal.KChain.eRowK (F := Ideal)
              (GAI (m ((c.tc : Thread Cert.KernelIdeal.nD Cert.KernelIdeal.τ).loc Cert.KernelIdeal.main_arg1))
                (Cert.KernelIdeal.KChain.hAttK (F := Ideal) (m ((c.tc : Thread Cert.KernelIdeal.nD Cert.KernelIdeal.τ).loc Cert.KernelIdeal.main_arg0))
                  (m ((c.tc : Thread Cert.KernelIdeal.nD Cert.KernelIdeal.τ).loc Cert.KernelIdeal.main_arg3))))
              (m ((c.tc : Thread Cert.KernelIdeal.nD Cert.KernelIdeal.τ).loc Cert.KernelIdeal.main_arg4)))
            (m ((c.tc : Thread Cert.KernelIdeal.nD Cert.KernelIdeal.τ).loc Cert.KernelIdeal.main_arg0)),
          fun c => GATT (m ((c.tc : Thread Cert.KernelIdeal.nD Cert.KernelIdeal.τ).loc Cert.KernelIdeal.main_arg2))
            (Cert.KernelIdeal.KChain.eRowK (F := Ideal)
              (GAI (m ((c.tc : Thread Cert.KernelIdeal.nD Cert.KernelIdeal.τ).loc Cert.KernelIdeal.main_arg1))
                (Cert.KernelIdeal.KChain.hAttK (F := Ideal) (m ((c.tc : Thread Cert.KernelIdeal.nD Cert.KernelIdeal.τ).loc Cert.KernelIdeal.main_arg0))
                  (m ((c.tc : Thread Cert.KernelIdeal.nD Cert.KernelIdeal.τ).loc Cert.KernelIdeal.main_arg3))))
              (m ((c.tc : Thread Cert.KernelIdeal.nD Cert.KernelIdeal.τ).loc Cert.KernelIdeal.main_arg4))), ?_, ?_⟩
  · exact (θ_run Cert.KernelIdeal.defs _ _).mono
      (fun r h c => ⟨(h c).1.trans (Cert.KernelIdeal.KValue.v8_1_eq m ρ c), (h c).2.1.trans (Cert.KernelIdeal.KValue.v8_0_eq m ρ c), (h c).2.2⟩)
      (Cert.KernelIdeal.KRun.run_results m ρ)
  · refine (θ_run Cert.ReferenceIdeal.defs _ _).mono (fun r h c => ?_) (Cert.ReferenceIdeal.RefRun.run (F := Ideal) m' ρ')
    obtain ⟨h30, h28, hargs⟩ := h c
    obtain ⟨e0, e1, e2, e3, e4⟩ := hagree c
    obtain ⟨f0, f3⟩ := Cert.Pre_finite_inputs.Finite.finite_of_pre _ _ _ _ _ (hpre c)
    refine ⟨h30.trans ?_, h28.trans ?_, hargs⟩
    · rw [e0, e1, e2, e3, e4, Cert.ReferenceIdeal.RefVal.res30_eq _ _ _ _ _ f0 f3, Cert.Bridge.hAtt_eq, Cert.Bridge.eRow_eq]
    · rw [e0, e1, e2, e3, e4, Cert.ReferenceIdeal.RefVal.res28_eq _ _ _ _ _ f0 f3, Cert.Bridge.hAtt_eq, Cert.Bridge.eRow_eq]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
